-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  reducesTo_S_S_d : S_.ReducesTo [] S_

variable [Facts]

def fn_part2 {F : FTy → Type} [FloatOps F] (main_arg1 : FVec F S10000x10000 .f32) (main_v32 : IVec S_ 1) (main_v33 : FVec F S_ .f32) : IVec S_ 1 :=
  let main_cst_12 : FVec F S_ .f32 := constant S_ .f32 0x7F800000#32
  let main_v34 : IVec S_ 1 := cmpf .olt main_v33 main_cst_12
  let main_c_13 : IVec S_ 1 := constantI S_ 1 1#1
  let main_v35 : IVec S_ 1 := (fun x v => Host.reduce IntOp.andi x v reducesTo_S_S_d h_S_) main_v34 main_c_13
  let main_v36 : IVec S_ 1 := andi main_v32 main_v35
  let main_cst_14 : FVec F S_ .f32 := constant S_ .f32 0x2B8CBCCC#32
  let main_v37 : FVec F S10000x10000 .f32 := broadcastInDim S10000x10000 ![] bcast_S_S10000x10000 main_cst_14
  let main_v38 : FVec F S10000x10000 .f32 := addf main_arg1 main_v37
  let main_cst_15 : FVec F S_ .f32 := constant S_ .f32 0x00000000#32
  let main_v39 : FVec F S10000x10000 .f32 := broadcastInDim S10000x10000 ![] bcast_S_S10000x10000 main_cst_15
  let main_v40 : IVec S10000x10000 1 := cmpf .ogt main_v38 main_v39
  let main_c_16 : IVec S_ 1 := constantI S_ 1 1#1
  let main_v41 : IVec S_ 1 := (fun x v => Host.reduce IntOp.andi x v reducesTo_S10000x10000_S_d0_1 h_S_) main_v40 main_c_16
  let main_v42 : IVec S_ 1 := andi main_v36 main_v41
  main_v42

def fn_part1 {F : FTy → Type} [FloatOps F] (main_arg1 : FVec F S10000x10000 .f32) (main_arg4 : FVec F S32x16 .f32) (main_arg5 : FVec F S16 .f32) (main_arg6 : FVec F S_ .f32) (main_arg7 : FVec F S_ .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S_ .f32 := Host.absf main_arg7
  fn_part2 (F := F) main_arg1 main_v32 main_v33

def fn {F : FTy → Type} [FloatOps F] (main_arg0 : FVec F S10000x128 .f32) (main_arg1 : FVec F S10000x10000 .f32) (main_arg2 : FVec F S128x32 .f32) (main_arg3 : FVec F S32 .f32) (main_arg4 : FVec F S32x16 .f32) (main_arg5 : FVec F S16 .f32) (main_arg6 : FVec F S_ .f32) (main_arg7 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg1 main_arg4 main_arg5 main_arg6 main_arg7 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩
abbrev S10000x32 : Shape := ⟨2, ![10000, 32]⟩
abbrev S1x32 : Shape := ⟨2, ![1, 32]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩
abbrev S16x10000 : Shape := ⟨2, ![16, 10000]⟩
abbrev S1x1 : Shape := ⟨2, ![1, 1]⟩
abbrev S200x10000 : Shape := ⟨2, ![200, 10000]⟩
abbrev S200x16 : Shape := ⟨2, ![200, 16]⟩
abbrev S200 : Shape := ⟨1, ![200]⟩
abbrev S200x1 : Shape := ⟨2, ![200, 1]⟩

abbrev nBuf : Space → Nat
  | .hbm => 50
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S10000x32, .f32⟩
  | .hbm, ⟨9, _⟩ => ⟨S1x32, .f32⟩
  | .hbm, ⟨10, _⟩ => ⟨S10000x32, .f32⟩
  | .hbm, ⟨11, _⟩ => ⟨S10000x32, .f32⟩
  | .hbm, ⟨12, _⟩ => ⟨S_, .f32⟩
  | .hbm, ⟨13, _⟩ => ⟨S10000x32, .f32⟩
  | .hbm, ⟨14, _⟩ => ⟨S10000x32, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S_, .f32⟩
  | .hbm, ⟨21, _⟩ => ⟨S10000, .f32⟩
  | .hbm, ⟨22, _⟩ => ⟨S10000x1, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S16x10000, .f32⟩
  | .hbm, ⟨46, _⟩ => ⟨S16x10000, .f32⟩
  | .hbm, ⟨47, _⟩ => ⟨S16x10000, .f32⟩
  | .hbm, ⟨48, _⟩ => ⟨S1x1, .f32⟩
  | .hbm, ⟨49, _⟩ => ⟨S10000x10000, .f32⟩
  | .local _ .vmem, ⟨0, _⟩ => ⟨S1x1, .f32⟩
  | .local _ .vmem, ⟨1, _⟩ => ⟨S200x10000, .f32⟩
  | .local _ .vmem, ⟨2, _⟩ => ⟨S200x10000, .f32⟩
  | .local _ .vmem, ⟨3, _⟩ => ⟨S200x16, .f32⟩
  | .local _ .vmem, ⟨4, _⟩ => ⟨S200x16, .f32⟩
  | .local _ .vmem, ⟨5, _⟩ => ⟨S16x10000, .f32⟩
  | .local _ .vmem, ⟨6, _⟩ => ⟨S200x10000, .f32⟩
  | .local _ .vmem, ⟨7, _⟩ => ⟨S200x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_cst_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x16_0_1 : S10000x1.BroadcastsInDim S10000x16 (![0, 1] : Fin 2 → Fin S10000x16.rank)
  transposes_S10000x16_S16x10000_1_0 : S10000x16.Transposes [1, 0] S16x10000
  bcast_S_S16x10000 : S_.BroadcastsInDim S16x10000 (![] : Fin 0 → Fin S16x10000.rank)
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x16_S200x16_0_0 : ∀ a, (![0, 0] : Fin 2 → Nat) a + S200x16.size a ≤ S200x16.size a
  h_S200x16 : 0 < S200x16.numel
  shapeCasts_S200x16_S200x16 : S200x16.ShapeCasts S200x16
  inb_S16x10000_S16x10000_0_0 : ∀ a, (![0, 0] : Fin 2 → Nat) a + S16x10000.size a ≤ S16x10000.size a
  h_S16x10000 : 0 < S16x10000.numel
  shapeCasts_S16x10000_S16x10000 : S16x10000.ShapeCasts S16x10000
  inb_S200x10000_S200x10000_0_0 : ∀ a, (![0, 0] : Fin 2 → Nat) a + S200x10000.size a ≤ S200x10000.size a
  h_S200x10000 : 0 < S200x10000.numel
  reduces_S200x10000_S200 : S200x10000.Reduces [1] S200
  shapeCasts_S200_S200x1 : S200.ShapeCasts S200x1
  broadcasts_S200x1_S200x10000 : S200x1.Broadcasts S200x10000
  dot_S10000x128_S128x32_S10000x32_1_0_0_1_n_n_wf : DotDims.WF S10000x128 S128x32 S10000x32 [1] [0] [0] [1] [] []
  dot_S10000x32_S32x16_S10000x16_1_0_0_1_n_n_wf : DotDims.WF S10000x32 S32x16 S10000x16 [1] [0] [0] [1] [] []
  dot_S200x16_S16x10000_S200x10000_1_0_0_1_n_n_wf : DotDims.WF S200x16 S16x10000 S200x10000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x16.size a ≤ S10000x16.size a
  hwx0_2 : ∀ i : grid0.Coords, EltTy.bits .f32 = 32 ∨ (Rect.block (s := S10000x16) S200x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x10000.size a ≤ S16x10000.size a
  hwx0_3 : ∀ i : grid0.Coords, EltTy.bits .f32 = 32 ∨ (Rect.block (s := S16x10000) S16x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S200x16_S16x10000_S200x10000_1_0_0_1_n_n : DotDims S200x16 S16x10000 S200x10000 where
  lhsContracting := [1]
  rhsContracting := [0]
  lhsNonContracting := [0]
  rhsNonContracting := [1]
  lhsBatch := []
  rhsBatch := []
  wf := dot_S200x16_S16x10000_S200x10000_1_0_0_1_n_n_wf

abbrev win0_0 : Pipeline.Window sig grid0 :=
  Pipeline.Window.ofSpec (Memref.whole main_v25) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S200x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S16x10000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S200x10000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩
abbrev S10000x32 : Shape := ⟨2, ![10000, 32]⟩
abbrev S1x32 : Shape := ⟨2, ![1, 32]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩
abbrev S16x10000 : Shape := ⟨2, ![16, 10000]⟩

abbrev nBuf : Space → Nat
  | .hbm => 71
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S_, .f32⟩
  | .hbm, ⟨7, _⟩ => ⟨S_, .f32⟩
  | .hbm, ⟨8, _⟩ => ⟨S10000x32, .f32⟩
  | .hbm, ⟨9, _⟩ => ⟨S1x32, .f32⟩
  | .hbm, ⟨10, _⟩ => ⟨S10000x32, .f32⟩
  | .hbm, ⟨11, _⟩ => ⟨S10000x32, .f32⟩
  | .hbm, ⟨12, _⟩ => ⟨S_, .f32⟩
  | .hbm, ⟨13, _⟩ => ⟨S10000x32, .f32⟩
  | .hbm, ⟨14, _⟩ => ⟨S10000x32, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S_, .f32⟩
  | .hbm, ⟨21, _⟩ => ⟨S10000, .f32⟩
  | .hbm, ⟨22, _⟩ => ⟨S10000x1, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x16, .f32⟩
  | .hbm, ⟨28, _⟩ => ⟨S10000x16, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x10000, .f32⟩
  | .hbm, ⟨43, _⟩ => ⟨S10000x10000, .f32⟩
  | .hbm, ⟨44, _⟩ => ⟨S10000x10000, .f32⟩
  | .hbm, ⟨45, _⟩ => ⟨S10000x10000, .f32⟩
  | .hbm, ⟨46, _⟩ => ⟨S_, .f32⟩
  | .hbm, ⟨47, _⟩ => ⟨S10000x10000, .f32⟩
  | .hbm, ⟨48, _⟩ => ⟨S10000x10000, .f32⟩
  | .hbm, ⟨49, _⟩ => ⟨S10000x10000, .f32⟩
  | .hbm, ⟨50, _⟩ => ⟨S10000x10000, .f32⟩
  | .hbm, ⟨51, _⟩ => ⟨S10000x10000, .f32⟩
  | .hbm, ⟨52, _⟩ => ⟨S_, .f32⟩
  | .hbm, ⟨53, _⟩ => ⟨S_, .f32⟩
  | .hbm, ⟨54, _⟩ => ⟨S10000x10000, .f32⟩
  | .hbm, ⟨55, _⟩ => ⟨S10000x10000, .f32⟩
  | .hbm, ⟨56, _⟩ => ⟨S10000x10000, .f32⟩
  | .hbm, ⟨57, _⟩ => ⟨S_, .f32⟩
  | .hbm, ⟨58, _⟩ => ⟨S10000, .f32⟩
  | .hbm, ⟨59, _⟩ => ⟨S_, .f32⟩
  | .hbm, ⟨60, _⟩ => ⟨S10000, .f32⟩
  | .hbm, ⟨61, _⟩ => ⟨S10000, .f32⟩
  | .hbm, ⟨62, _⟩ => ⟨S10000x1, .f32⟩
  | .hbm, ⟨63, _⟩ => ⟨S10000x10000, .f32⟩
  | .hbm, ⟨64, _⟩ => ⟨S10000x10000, .f32⟩
  | .hbm, ⟨65, _⟩ => ⟨S10000x10000, .f32⟩
  | .hbm, ⟨66, _⟩ => ⟨S_, .f32⟩
  | .hbm, ⟨67, _⟩ => ⟨S10000, .f32⟩
  | .hbm, ⟨68, _⟩ => ⟨S10000x1, .f32⟩
  | .hbm, ⟨69, _⟩ => ⟨S10000x10000, .f32⟩
  | .hbm, ⟨70, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_cst_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x16_0_1 : S10000x1.BroadcastsInDim S10000x16 (![0, 1] : Fin 2 → Fin S10000x16.rank)
  transposes_S10000x16_S16x10000_1_0 : S10000x16.Transposes [1, 0] S16x10000
  bcast_S_S10000x10000 : S_.BroadcastsInDim S10000x10000 (![] : Fin 0 → Fin S10000x10000.rank)
  reducesTo_S10000x10000_S10000_d1 : S10000x10000.ReducesTo [1] S10000
  bcast_S_S10000 : S_.BroadcastsInDim S10000 (![] : Fin 0 → Fin S10000.rank)
  bcast_S10000x1_S10000x10000_0_1 : S10000x1.BroadcastsInDim S10000x10000 (![0, 1] : Fin 2 → Fin S10000x10000.rank)
  dot_S10000x128_S128x32_S10000x32_1_0_0_1_n_n_wf : DotDims.WF S10000x128 S128x32 S10000x32 [1] [0] [0] [1] [] []
  dot_S10000x32_S32x16_S10000x16_1_0_0_1_n_n_wf : DotDims.WF S10000x32 S32x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KernelRow.lean ====
/-
  One block of the kernel, entry by entry.

  At a grid point the kernel body holds a [200, 10000] block of the prior `a`, the matching [200, 16] block of query rows
  `h`, the whole [16, 10000] matrix of (already scaled) keys `k`, and the scalar blend weight `α` as a [1, 1] array. It stores

      w (p, q) = exp (z (p, q) − M p) · (1 / s p),   z (p, q) = α · log (a (p, q) + ε) + ∑ e, h (p, e) · k (e, q),
      M p = the maximum of row p of z (folded from −∞),   s p = ∑ q', exp (z (p, q') − M p).

  The stored array is written here as `normalised (blockScores …)` — the two halves of the body, the score and the
  softmax — and each half is read at an index (p, q): the row maximum and the row sum are reductions along the
  second axis, kept as a [200, 1] column and broadcast back along the row; the contraction is a matrix product into
  a zero accumulator, its contraction index renamed by its one coordinate.
-/
import proofs.«163086_j18176301597000_2_alg».proof.Proof.Gen.KernelIdeal.Skeleton
import proofs.«163086_j18176301597000_2_alg».proof.Proof.LibColumnLayout
import Idealize.ShloMosaic.Lib.ValueIdx
import Idealize.ShloMosaic.Lib.Pipeline.Value
import Idealize.ShloMosaic.PureOps.Ideal.Laws

noncomputable section

namespace Cert.Blend

open Idealize.ShloMosaic Idealize.ShloMosaic.ValueIdx Cert.KernelIdeal Cert.KernelIdeal.Gen

/-- The blended scores of a block: α · log (a + ε) + h · k, the product into a zero accumulator. -/
def blockScores (x0 : FVec Ideal S1x1 .f32) (x2 : FVec Ideal S200x16 .f32) (x4 : FVec Ideal S16x10000 .f32)
    (x7 : FVec Ideal S200x10000 .f32) : FVec Ideal S200x10000 .f32 :=
  addf (mulf (broadcast S200x10000 (extractAt ![0, 0] x0 inpos_S1x1_p0_0))
      (log (addf x7 (broadcast S200x10000 (Scalar.ofBits (F := Ideal) .f32 0x2B8CBCCC#32)))))
    (matmul dot_S200x16_S16x10000_S200x10000_1_0_0_1_n_n none (shapeCast S200x16 x2 shapeCasts_S200x16_S200x16)
      (shapeCast S16x10000 x4 shapeCasts_S16x10000_S16x10000) (constant S200x10000 .f32 0x00000000#32))

/-- The maximum of each row, folded from −∞. -/
def rowMax (z : FVec Ideal S200x10000 .f32) : FVec Ideal S200 .f32 :=
  multiReduction .maximumf [1] S200 z 0xFF800000#32 reduces_S200x10000_S200 (.inl rfl) rfl

/-- exp (z − its row maximum), the maximum kept as a column and repeated along the row. -/
def shifted (z : FVec Ideal S200x10000 .f32) : FVec Ideal S200x10000 .f32 :=
  exp (subf z (broadcastTo S200x10000 (shapeCast S200x1 (rowMax z) shapeCasts_S200_S200x1) broadcasts_S200x1_S200x10000))

/-- The sum of each row. -/
def rowSum (e : FVec Ideal S200x10000 .f32) : FVec Ideal S200 .f32 :=
  multiReduction .add [1] S200 e 0x00000000#32 reduces_S200x10000_S200 (.inl rfl) rfl

/-- The softmax of each row, normalised by the RECIPROCAL of the row sum: exp (z − M) · (1 / s). -/
def normalised (z : FVec Ideal S200x10000 .f32) : FVec Ideal S200x10000 .f32 :=
  mulf (shifted z) (broadcastTo S200x10000
    (divf (broadcast S200x1 (Scalar.ofBits (F := Ideal) .f32 0x3F800000#32))
      (shapeCast S200x1 (rowSum (shifted z)) shapeCasts_S200_S200x1)) broadcasts_S200x1_S200x10000)

/-- The body's stored value is the softmax half applied to the score half. -/
theorem pay_eq (x0 : FVec Ideal S1x1 .f32) (x2 : FVec Ideal S200x16 .f32) (x4 : FVec Ideal S16x10000 .f32)
    (x7 : FVec Ideal S200x10000 .f32) :
    k0_pay1 (F := Ideal) x0 x2 x4 x7 = normalised (blockScores x0 x2 x4 x7) := rfl

/-- The index a reduction along the second axis reads for row p and column k is (p, k). -/
theorem lift_row (p : Fin 200) (k : Fin 10000) :
    reduces_S200x10000_S200.lift (ix1 p) k = (ix2 p k : S200x10000.Idx) :=
  funext fun a => Fin.ext (by
    match a with
    | ⟨0, _⟩ => rfl
    | ⟨1, _⟩ => rfl)

theorem rowMax_apply (z : FVec Ideal S200x10000 .f32) (p : Fin 200) :
    rowMax z (ix1 p) = Finset.univ.fold max (Ideal.ofBits .f32 0xFF800000#32) (fun k : Fin 10000 => z (ix2 p k)) := by
  unfold rowMax
  refine (Ideal.multiReduction_maximumf_single z 0xFF800000#32 reduces_S200x10000_S200 (.inl rfl) rfl (ix1 p)).trans ?_
  exact congrArg (fun f => Finset.univ.fold max (Ideal.ofBits .f32 0xFF800000#32) f)
    (funext fun k => congrArg z (lift_row p k))

theorem rowSum_apply (e : FVec Ideal S200x10000 .f32) (p : Fin 200) :
    rowSum e (ix1 p) = ∑ k : Fin 10000, e (ix2 p k) := by
  unfold rowSum
  refine (Ideal.multiReduction_add_single e 0x00000000#32 reduces_S200x10000_S200 (.inl rfl) rfl (ix1 p)).trans ?_
  exact Finset.sum_congr rfl fun k _ => congrArg e (lift_row p k)

theorem shifted_apply (z : FVec Ideal S200x10000 .f32) (p : Fin 200) (q : Fin 10000) :
    shifted z (ix2 p q)
      = Ideal.exp (z (ix2 p q) - Finset.univ.fold max (Ideal.ofBits .f32 0xFF800000#32) (fun k : Fin 10000 => z (ix2 p k))) := by
  show Ideal.exp (z (ix2 p q) - broadcastTo S200x10000 (shapeCast S200x1 (rowMax z) shapeCasts_S200_S200x1)
    broadcasts_S200x1_S200x10000 (ix2 p q)) = _
  rw [ColumnLayout.column_broadcast_apply, rowMax_apply]

/-- THE SOFTMAX HALF AT AN ENTRY: exp (z (p, q) − M p) · (1 / ∑ q', exp (z (p, q') − M p)). -/
theorem normalised_apply (z : FVec Ideal S200x10000 .f32) (p : Fin 200) (q : Fin 10000) :
    normalised z (ix2 p q)
      = Ideal.exp (z (ix2 p q) - Finset.univ.fold max (Ideal.ofBits .f32 0xFF800000#32) (fun k : Fin 10000 => z (ix2 p k)))
        * Ideal.div (Ideal.ofBits .f32 0x3F800000#32)
            (∑ k : Fin 10000, Ideal.exp (z (ix2 p k)
              - Finset.univ.fold max (Ideal.ofBits .f32 0xFF800000#32) (fun k' : Fin 10000 => z (ix2 p k')))) := by
  show shifted z (ix2 p q) * broadcastTo S200x10000
    (divf (broadcast S200x1 (Scalar.ofBits (F := Ideal) .f32 0x3F800000#32))
      (shapeCast S200x1 (rowSum (shifted z)) shapeCasts_S200_S200x1)) broadcasts_S200x1_S200x10000 (ix2 p q) = _
  rw [ColumnLayout.broadcastTo_a1_ab_apply]
  show shifted z (ix2 p q) * Ideal.div (Ideal.ofBits .f32 0x3F800000#32)
    (shapeCast S200x1 (rowSum (shifted z)) shapeCasts_S200_S200x1 (ix2 p (0 : Fin 1))) = _
  rw [ColumnLayout.shapeCast_a_a1_apply, rowSum_apply, shifted_apply]
  have hs : (∑ k : Fin 10000, shifted z (ix2 p k))
      = ∑ k : Fin 10000, Ideal.exp (z (ix2 p k)
          - Finset.univ.fold max (Ideal.ofBits .f32 0xFF800000#32) (fun k' : Fin 10000 => z (ix2 p k'))) :=
    Finset.sum_congr rfl fun k _ => shifted_apply z p k
  rw [hs]

/-- The operand indices of the body's matrix product, coordinate by coordinate: the left operand is read at
    (row of the output, contraction coordinate), the right at (contraction coordinate, column of the output). -/
theorem lhs_row (i : S200x10000.Idx) (c : dot_S200x16_S16x10000_S200x10000_1_0_0_1_n_n.contr.Idx) :
    (dot_S200x16_S16x10000_S200x10000_1_0_0_1_n_n.lhsIdx i c 0).val = (i 0).val := by
  unfold DotDims.lhsIdx
  rw [dif_neg (show ¬(0 : Fin S200x16.rank) ∈ dot_S200x16_S16x10000_S200x10000_1_0_0_1_n_n.lhsBatch by decide),
    dif_pos (show (0 : Fin S200x16.rank) ∈ dot_S200x16_S16x10000_S200x10000_1_0_0_1_n_n.lhsNonContracting by decide)]
  rfl
theorem lhs_contr (i : S200x10000.Idx) (c : dot_S200x16_S16x10000_S200x10000_1_0_0_1_n_n.contr.Idx) :
    (dot_S200x16_S16x10000_S200x10000_1_0_0_1_n_n.lhsIdx i c 1).val = (c ⟨0, by decide⟩).val :=
  dot_S200x16_S16x10000_S200x10000_1_0_0_1_n_n.lhsIdx_val_of_single rfl i c
theorem rhs_contr (i : S200x10000.Idx) (c : dot_S200x16_S16x10000_S200x10000_1_0_0_1_n_n.contr.Idx) :
    (dot_S200x16_S16x10000_S200x10000_1_0_0_1_n_n.rhsIdx i c 0).val = (c ⟨0, by decide⟩).val :=
  dot_S200x16_S16x10000_S200x10000_1_0_0_1_n_n.rhsIdx_val_of_single rfl i c
theorem rhs_col (i : S200x10000.Idx) (c : dot_S200x16_S16x10000_S200x10000_1_0_0_1_n_n.contr.Idx) :
    (dot_S200x16_S16x10000_S200x10000_1_0_0_1_n_n.rhsIdx i c 1).val = (i 1).val := by
  unfold DotDims.rhsIdx
  rw [dif_neg (show ¬(1 : Fin S16x10000.rank) ∈ dot_S200x16_S16x10000_S200x10000_1_0_0_1_n_n.rhsBatch by decide),
    dif_pos (show (1 : Fin S16x10000.rank) ∈ dot_S200x16_S16x10000_S200x10000_1_0_0_1_n_n.rhsNonContracting by decide)]
  rfl

/-- THE SCORE HALF AT AN ENTRY: α · log (a (p, q) + ε) + ∑ e, h (p, e) · k (e, q). -/
theorem blockScores_apply (x0 : FVec Ideal S1x1 .f32) (x2 : FVec Ideal S200x16 .f32) (x4 : FVec Ideal S16x10000 .f32)
    (x7 : FVec Ideal S200x10000 .f32) (p : Fin 200) (q : Fin 10000) :
    blockScores x0 x2 x4 x7 (ix2 p q)
      = x0 (ix2 0 0) * Ideal.log (x7 (ix2 p q) + Ideal.ofBits .f32 0x2B8CBCCC#32)
        + ∑ e : Fin 16, x2 (ix2 p e) * x4 (ix2 e q) := by
  show extractAt ![0, 0] x0 inpos_S1x1_p0_0 * Ideal.log (x7 (ix2 p q) + Ideal.ofBits .f32 0x2B8CBCCC#32)
    + matmul dot_S200x16_S16x10000_S200x10000_1_0_0_1_n_n none (shapeCast S200x16 x2 shapeCasts_S200x16_S200x16)
      (shapeCast S16x10000 x4 shapeCasts_S16x10000_S16x10000) (constant S200x10000 .f32 0x00000000#32) (ix2 p q) = _
  have hα : extractAt ![0, 0] x0 inpos_S1x1_p0_0 = x0 (ix2 0 0) :=
    congrArg x0 (funext fun a => Fin.ext (by
      match a with
      | ⟨0, _⟩ => rfl
      | ⟨1, _⟩ => rfl))
  rw [hα, shapeCast_self, shapeCast_self]
  simp only [matmul]
  rw [Ideal.matmul_constant_zero_apply,
    ← Equiv.sum_comp (contrEquiv1 dot_S200x16_S16x10000_S200x10000_1_0_0_1_n_n 16 rfl rfl).symm]
  refine congrArg (fun s => _ + s) (Finset.sum_congr rfl fun k _ => ?_)
  have hk := contrEquiv1_symm_val dot_S200x16_S16x10000_S200x10000_1_0_0_1_n_n 16 rfl rfl k
  have el : dot_S200x16_S16x10000_S200x10000_1_0_0_1_n_n.lhsIdx (ix2 p q)
      ((contrEquiv1 dot_S200x16_S16x10000_S200x10000_1_0_0_1_n_n 16 rfl rfl).symm k) = ix2 p k :=
    funext fun a => Fin.ext (by
      match a with
      | ⟨0, _⟩ => exact lhs_row _ _
      | ⟨1, _⟩ => exact (lhs_contr _ _).trans hk)
  have er : dot_S200x16_S16x10000_S200x10000_1_0_0_1_n_n.rhsIdx (ix2 p q)
      ((contrEquiv1 dot_S200x16_S16x10000_S200x10000_1_0_0_1_n_n 16 rfl rfl).symm k) = ix2 k q :=
    funext fun a => Fin.ext (by
      match a with
      | ⟨0, _⟩ => exact (rhs_contr _ _).trans hk
      | ⟨1, _⟩ => exact rhs_col _ _)
  rw [el, er]

end Cert.Blend

end
-- ==== Proof.Spec.lean ====
/-
  A softmax row normalised by the reciprocal of its sum.

  For a row z of 10000 scores, with M its maximum folded from −∞ (the f32 word 0xFF800000) and the word 1.0,

      softRecipAt z j = exp (z j − M) · (1.0 / ∑ k, exp (z k − M)).

  This is the form the kernel computes; the literal words are kept as words and only read as numbers where a law needs it.
-/
import Idealize.ShloMosaic.PureOps.Ideal

noncomputable section

namespace Cert.Blend

open Idealize.ShloMosaic

/-- A row of scores, softmaxed with the RECIPROCAL of the row sum: exp (z j − M) · (1 / ∑ exp (z j' − M)). -/
def softRecipAt (z : Fin 10000 → EReal) (j : Fin 10000) : EReal :=
  Ideal.exp (z j - Finset.univ.fold max (Ideal.ofBits .f32 0xFF800000#32) z)
    * Ideal.div (Ideal.ofBits .f32 0x3F800000#32)
        (∑ k : Fin 10000, Ideal.exp (z k - Finset.univ.fold max (Ideal.ofBits .f32 0xFF800000#32) z))

end Cert.Blend

end
-- ==== Proof.Blocks.lean ====
/-
  From blocks to the array: the kernel's first result, as ONE function of the arrays the region finds.

  The grid has 50 points; at point t the kernel reads rows 200·t … 200·t + 199 of the prior `a` and of the query rows
  `h`, the whole key matrix `k` and the one-entry weight array `α`, and writes rows 200·t … 200·t + 199 of the result.
  Row r of the result depends only on row r of `a` and of `h` (and on all of `k`, and on α):

      G (r, j) = exp (z r j − M r) · (1 / ∑ j', exp (z r j' − M r)),
      z r j = α · log (a (r, j) + ε) + ∑ e, h (r, e) · k (e, j),   M r = max over j of z r j (folded from −∞),

  so the block point t writes is the restriction of G to its rows, the 50 blocks cover the array (row r lies in the
  block of point r / 200), and after the run the result array is G.
-/
import proofs.«163086_j18176301597000_2_alg».proof.Proof.Gen.KernelIdeal.Value
import proofs.«163086_j18176301597000_2_alg».proof.Proof.KernelRow
import proofs.«163086_j18176301597000_2_alg».proof.Proof.Spec

noncomputable section

namespace Cert.Blend

open Cert.KernelIdeal Cert.KernelIdeal.Gen Idealize.ShloMosaic Idealize.ShloMosaic.TcCoe Idealize.SL.Sem
open Idealize.ShloMosaic.ValueIdx
open Idealize.ShloMosaic.Pipeline (Dat)

/-! ## The whole-array function -/

/-- The blended score of row r at column j. -/
def scoreAt (α : FVec Ideal S1x1 .f32) (A : FVec Ideal S10000x10000 .f32) (Hn : FVec Ideal S10000x16 .f32)
    (K : FVec Ideal S16x10000 .f32) (r j : Fin 10000) : EReal :=
  α (ix2 0 0) * Ideal.log (A (ix2 r j) + Ideal.ofBits .f32 0x2B8CBCCC#32) + ∑ e : Fin 16, Hn (ix2 r e) * K (ix2 e j)

/-- The kernel's first result as one function of the four arrays the region reads. -/
def G (α : FVec Ideal S1x1 .f32) (A : FVec Ideal S10000x10000 .f32) (Hn : FVec Ideal S10000x16 .f32)
    (K : FVec Ideal S16x10000 .f32) : S10000x10000.Idx → EReal :=
  fun i => softRecipAt (fun k => scoreAt α A Hn K ⟨(i 0).val, (i 0).isLt⟩ k) ⟨(i 1).val, (i 1).isLt⟩

/-- G at an index whose coordinates are r and j. -/
theorem G_at (α : FVec Ideal S1x1 .f32) (A : FVec Ideal S10000x10000 .f32) (Hn : FVec Ideal S10000x16 .f32)
    (K : FVec Ideal S16x10000 .f32) (i : S10000x10000.Idx) (r j : Fin 10000) (h0 : (i 0).val = r.val) (h1 : (i 1).val = j.val) :
    G α A Hn K i = softRecipAt (fun k => scoreAt α A Hn K r k) j := by
  have e0 : (⟨(i 0).val, (i 0).isLt⟩ : Fin 10000) = r := Fin.ext h0
  have e1 : (⟨(i 1).val, (i 1).isLt⟩ : Fin 10000) = j := Fin.ext h1
  unfold G
  rw [e0, e1]

/-- ONE POINT OF THE GRID, over variables: a body run on blocks that hold row r of the prior and of the query rows (as
    their row p), the whole key matrix and the weight, stores at (p, q) the whole-array function's value at (r, q). -/
theorem point_value (x0 : FVec Ideal S1x1 .f32) (x1 : FVec Ideal S200x10000 .f32) (x2 : FVec Ideal S200x16 .f32)
    (x3 : FVec Ideal S16x10000 .f32) (α : FVec Ideal S1x1 .f32) (A : FVec Ideal S10000x10000 .f32)
    (Hn : FVec Ideal S10000x16 .f32) (K : FVec Ideal S16x10000 .f32) (r : Fin 10000) (p : Fin 200) (q : Fin 10000)
    (h0 : x0 (ix2 0 0) = α (ix2 0 0)) (h1 : ∀ k : Fin 10000, x1 (ix2 p k) = A (ix2 r k))
    (h2 : ∀ e : Fin 16, x2 (ix2 p e) = Hn (ix2 r e)) (h3 : ∀ (e : Fin 16) (k : Fin 10000), x3 (ix2 e k) = K (ix2 e k)) :
    k0_pay1 (F := Ideal) x0 x2 x3 x1 (ix2 p q) = softRecipAt (fun k => scoreAt α A Hn K r k) q := by
  have hz : ∀ k : Fin 10000, blockScores x0 x2 x3 x1 (ix2 p k) = scoreAt α A Hn K r k := fun k => by
    rw [blockScores_apply, h0, h1 k]
    unfold scoreAt
    exact congrArg (fun s => _ + s) (Finset.sum_congr rfl fun e _ => by rw [h2 e, h3 e k])
  rw [pay_eq, normalised_apply]
  simp only [hz]
  rfl

/-! ## The windows' blocks at a symbolic point -/

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 50 points: the weight and the keys stay at block (0, 0); the prior, the
    query rows and the result move down one block of rows per point. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of point t's blocks is row 200·t + p of the arrays. -/
def rowOf (t : Fin cfg0.N) (p : Fin 200) : Fin 10000 :=
  ⟨200 * t.val + p.val, by
    have hN : grid0.N = 50 := N_0
    have ht : t.val < grid0.N := t.isLt
    have hp := p.isLt
    omega⟩

theorem read_weight (c : Dev nD) (t : Fin cfg0.N) :
    (iblk m c 0 t : Vec Ideal S1x1 .f32) (ix2 0 0) = (V m c main_v25 : S1x1.Idx → EReal) (ix2 0 0) := by
  obtain ⟨e00, e01, -⟩ := idx_facts t
  unfold iblk
  rw [View.read_apply]
  show V m c main_v25 _ = V m c main_v25 _
  refine congrArg (V m c main_v25) (funext fun a => Fin.ext ?_)
  match a with
  | ⟨0, _⟩ => show win0_0.index t (0 : Fin 2) * 1 + 1 * 0 = 0; omega
  | ⟨1, _⟩ => show win0_0.index t (1 : Fin 2) * 1 + 1 * 0 = 0; omega

theorem read_prior (c : Dev nD) (t : Fin cfg0.N) (p : Fin 200) (k : Fin 10000) :
    (iblk m c 1 t : Vec Ideal S200x10000 .f32) (ix2 p k) = (V m c main_arg1 : S10000x10000.Idx → EReal) (ix2 (rowOf t p) k) := by
  obtain ⟨-, -, e10, e11, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 200 + 1 * p.val = 200 * t.val + p.val; omega
  | ⟨1, _⟩ => show win0_1.index t (1 : Fin 2) * 10000 + 1 * k.val = k.val; omega

theorem read_rows (c : Dev nD) (t : Fin cfg0.N) (p : Fin 200) (e : Fin 16) :
    (iblk m c 2 t : Vec Ideal S200x16 .f32) (ix2 p e) = (V m c main_v13 : S10000x16.Idx → EReal) (ix2 (rowOf t p) e) := by
  obtain ⟨-, -, -, -, e20, e21, -⟩ := idx_facts t
  unfold iblk
  rw [View.read_apply]
  show V m c main_v13 _ = V m c main_v13 _
  refine congrArg (V m c main_v13) (funext fun a => Fin.ext ?_)
  match a with
  | ⟨0, _⟩ => show win0_2.index t (0 : Fin 2) * 200 + 1 * p.val = 200 * t.val + p.val; omega
  | ⟨1, _⟩ => show win0_2.index t (1 : Fin 2) * 16 + 1 * e.val = e.val; omega

theorem read_keys (c : Dev nD) (t : Fin cfg0.N) (e : Fin 16) (k : Fin 10000) :
    (iblk m c 3 t : Vec Ideal S16x10000 .f32) (ix2 e k) = (V m c main_v24 : S16x10000.Idx → EReal) (ix2 e k) := by
  obtain ⟨-, -, -, -, -, -, e30, e31, -⟩ := idx_facts t
  unfold iblk
  rw [View.read_apply]
  show V m c main_v24 _ = V m c main_v24 _
  refine congrArg (V m c main_v24) (funext fun a => Fin.ext ?_)
  match a with
  | ⟨0, _⟩ => show win0_3.index t (0 : Fin 2) * 16 + 1 * e.val = e.val; omega
  | ⟨1, _⟩ => show win0_3.index t (1 : Fin 2) * 10000 + 1 * k.val = k.val; omega

/-! ## What a point writes back, the cover, the array -/

/-- The result array as the region's function of what it finds. -/
abbrev result (c : Dev nD) : S10000x10000.Idx → EReal :=
  G (V m c main_v25) (V m c main_arg1) (V m c main_v13) (V m c main_v24)

/-- WHAT POINT t WRITES BACK is block t of the whole-array function. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero hz]
  simp only [View.ld_unit_zero (S := S1x1) hz, View.ld_unit_zero (S := S200x16) hz,
    View.ld_unit_zero (S := S16x10000) hz, View.ld_unit_zero (S := S200x10000) hz]
  obtain ⟨-, -, -, -, -, -, -, -, e40, e41⟩ := idx_facts t
  funext y
  obtain ⟨p, q, rfl⟩ : ∃ (p : Fin 200) (q : Fin 10000), y = ix2 p q := ⟨y 0, y 1, eq_ix2 y⟩
  show k0_pay1 (F := Ideal) (iblk m c 0 t) (iblk m c 2 t) (iblk m c 3 t) (iblk m c 1 t) (ix2 p q)
    = result m c (((cfg0.win 4).blk t).view.emb (ix2 p q))
  refine Eq.trans ?_ (G_at (V m c main_v25) (V m c main_arg1) (V m c main_v13) (V m c main_v24)
    (((cfg0.win 4).blk t).view.emb (ix2 p q)) (rowOf t p) q
    (by show win0_4.index t (0 : Fin 2) * 200 + 1 * p.val = 200 * t.val + p.val; omega)
    (by show win0_4.index t (1 : Fin 2) * 10000 + 1 * q.val = q.val; omega)).symm
  exact point_value (iblk m c 0 t) (iblk m c 1 t) (iblk m c 2 t) (iblk m c 3 t)
    (V m c main_v25) (V m c main_arg1) (V m c main_v13) (V m c main_v24) (rowOf t p) p q
    (read_weight m c t) (fun k => read_prior m c t p k) (fun e => read_rows m c t p e) (fun e k => read_keys m c t e k)

/-- An index of the array is in point t's block iff each coordinate is in the block's range on its axis. -/
theorem mem_blk (t : Fin cfg0.N) (i : S10000x10000.Idx) :
    i ∈ ((cfg0.win 4).blk t).view.set ↔ ∀ a : Fin 2, win0_4.index t a * S200x10000.size a ≤ (i a).val
      ∧ (i a).val < win0_4.index t a * S200x10000.size a + S200x10000.size a := by
  show i ∈ ((View.whole main_v26).slice (win0_4.rect t)).set ↔ _
  rw [View.set_slice_whole, Rect.mem_set_unit]
  exact Iff.rfl

/-- Every index lies in some point's block: row r in the block of point r / 200. -/
theorem cover (i : S10000x10000.Idx) : ∃ t : Fin cfg0.N, (cfg0.win 4).flush t = true ∧ i ∈ ((cfg0.win 4).blk t).view.set := by
  have hN : grid0.N = 50 := N_0
  have hi0 : (i 0).val < 10000 := (i 0).isLt
  have hi1 : (i 1).val < 10000 := (i 1).isLt
  let t : Fin cfg0.N := ⟨(i 0).val / 200, by show (i 0).val / 200 < grid0.N; omega⟩
  obtain ⟨-, -, -, -, -, -, -, -, e40, e41⟩ := idx_facts t
  have ht : t.val = (i 0).val / 200 := rfl
  refine ⟨t, flush0_4 t, ?_⟩
  rw [mem_blk]
  intro a
  match a with
  | ⟨0, _⟩ => show win0_4.index t (0 : Fin 2) * 200 ≤ (i 0).val ∧ (i 0).val < win0_4.index t (0 : Fin 2) * 200 + 200; omega
  | ⟨1, _⟩ => show win0_4.index t (1 : Fin 2) * 10000 ≤ (i 1).val ∧ (i 1).val < win0_4.index t (1 : Fin 2) * 10000 + 10000; omega

/-- THE ARRAY after the run is the whole-array function. -/
theorem final (c : Dev nD) : (dats m 0 c).arrAt 4 cfg0.N = result m c :=
  (dats m 0 c).arrAt_eq_of_cover 4 (result m c) (fun t _ => flushed_eq m c t) cover

/-- The run, read: the first result at the whole-array function, the second (an array the host computed before the
    region, which no window stages) as the region found it, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_v8) = V m c main_v8
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(Value.post4 m r h c).trans (final m c),
      (h c).2 main_v8 (Pipeline.mem_restRefs_of main_v8 (by decide) (by decide)),
      Value.kept_main_arg0 m r h c, Value.kept_main_arg1 m r h c, Value.kept_main_arg2 m r h c,
      Value.kept_main_arg3 m r h c, Value.kept_main_arg4 m r h c, Value.kept_main_arg5 m r h c,
      Value.kept_main_arg6 m r h c, Value.kept_main_arg7 m r h c⟩)
    (run_main m ρ)

end Cert.Blend

end
-- ==== Proof.HostSide.lean ====
/-
  What the region finds: the arrays the host computed before the kernel's launch, named.

  Before the launch the host computes the encoder H = relu (X · W1 + b1) · W2 + b2 (the second result), its
  row-normalised Hn = H / max (‖H‖, ε), the temperature τ = min (10, max (0.1, exp log_tau)), the weight
  α = 1 / (1 + exp (−raw_alpha)), and from them the three arrays the kernel reads beside the prior:

    * the query rows: Hn itself;
    * the keys: Hn transposed and multiplied by the scalar (1 − α) / τ, so the key at (e, j) is Hn (j, e) · ((1 − α) / τ);
    * the weight: α reshaped to a [1, 1] array.

  The host's operations are the reference's own first operations, spelt identically, so each array is NAMED by the
  reference's stage of the same operations (the functions of the arguments that read the reference's run one
  operation at a time); the scalar stages are read at their one index.
-/
import proofs.«163086_j18176301597000_2_alg».proof.Proof.Gen.KernelIdeal.Frame
import proofs.«163086_j18176301597000_2_alg».proof.Proof.ReadP
import Idealize.ShloMosaic.Lib.StableHlo.Run
import Idealize.ShloMosaic.Lib.Pipeline.Value
import Idealize.ShloMosaic.Lib.ValueIdx

noncomputable section

namespace Cert.Blend

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The normalised embedding rows Hn, as a function of the launch contents of X, W1, b1, W2, b2. -/
abbrev rowsOf (c : Dev nD) : FVec Ideal S10000x16 .f32 :=
  Cert.ReferenceIdeal.ReadP.val_main_v13 (F := Ideal) (m ((c : Thread nD τ).loc main_arg0)) (m ((c : Thread nD τ).loc main_arg2)) (m ((c : Thread nD τ).loc main_arg3)) (m ((c : Thread nD τ).loc main_arg4)) (m ((c : Thread nD τ).loc main_arg5))
/-- The encoder output H (the second result). -/
abbrev encOf (c : Dev nD) : FVec Ideal S10000x16 .f32 :=
  Cert.ReferenceIdeal.ReadP.val_main_v8 (F := Ideal) (m ((c : Thread nD τ).loc main_arg0)) (m ((c : Thread nD τ).loc main_arg2)) (m ((c : Thread nD τ).loc main_arg3)) (m ((c : Thread nD τ).loc main_arg4)) (m ((c : Thread nD τ).loc main_arg5))
/-- The clipped temperature τ, the weight α and 1 − α, each a rank-0 array. -/
abbrev tauOf (c : Dev nD) : FVec Ideal S_ .f32 := Cert.ReferenceIdeal.ReadP.val_main_v15 (F := Ideal) (m ((c : Thread nD τ).loc main_arg6))
abbrev alphaOf (c : Dev nD) : FVec Ideal S_ .f32 := Cert.ReferenceIdeal.ReadP.val_main_v19 (F := Ideal) (m ((c : Thread nD τ).loc main_arg7))
abbrev omegaOf (c : Dev nD) : FVec Ideal S_ .f32 := Cert.ReferenceIdeal.ReadP.val_main_v29 (F := Ideal) (m ((c : Thread nD τ).loc main_arg7))

set_option maxHeartbeats 8000000 in
/-- The query rows the region finds are Hn. -/
theorem V_rows (c : Dev nD) : @Eq (FVec Ideal S10000x16 .f32) (V m c main_v13) (rowsOf m c) := by
  dsimp only [V]
  simp only [hostOps0, hostOps0_1, hostOps0_2, hostOps0_3, hostOps0_4, hostOps0_5, hostOps0_6,
    List.flatten_cons, List.flatten_nil, List.append_nil, List.cons_append, List.nil_append]
  after_results_simp <;> rfl

set_option maxHeartbeats 8000000 in
/-- The second result the region finds is H. -/
theorem V_enc (c : Dev nD) : @Eq (FVec Ideal S10000x16 .f32) (V m c main_v8) (encOf m c) := by
  dsimp only [V]
  simp only [hostOps0, hostOps0_1, hostOps0_2, hostOps0_3, hostOps0_4, hostOps0_5, hostOps0_6,
    List.flatten_cons, List.flatten_nil, List.append_nil, List.cons_append, List.nil_append]
  after_results_simp <;> rfl

set_option maxHeartbeats 8000000 in
/-- The keys the region finds: Hn transposed, times the scalar (1 − α) / τ broadcast. -/
theorem V_keys (c : Dev nD) : @Eq (FVec Ideal S16x10000 .f32) (V m c main_v24)
    (mulf (transpose S16x10000 [1, 0] (rowsOf m c) transposes_S10000x16_S16x10000_1_0)
      (broadcastInDim S16x10000 ![] bcast_S_S16x10000 (Host.divf (F := Ideal) (omegaOf m c) (tauOf m c)))) := by
  dsimp only [V]
  simp only [hostOps0, hostOps0_1, hostOps0_2, hostOps0_3, hostOps0_4, hostOps0_5, hostOps0_6,
    List.flatten_cons, List.flatten_nil, List.append_nil, List.cons_append, List.nil_append]
  after_results_simp <;> rfl

/-- The key at (e, j) is Hn (j, e) · ((1 − α) / τ). -/
theorem V_keys_apply (c : Dev nD) (e : Fin 16) (j : Fin 10000) :
    (V m c main_v24 : FVec Ideal S16x10000 .f32) (ix2 e j)
      = rowsOf m c (ix2 j e) * Ideal.div (omegaOf m c ix0) (tauOf m c ix0) := by
  rw [V_keys]
  show transpose S16x10000 [1, 0] (rowsOf m c) transposes_S10000x16_S16x10000_1_0 (ix2 e j)
    * broadcastInDim S16x10000 ![] bcast_S_S16x10000 (Host.divf (F := Ideal) (omegaOf m c) (tauOf m c)) (ix2 e j) = _
  rw [transpose_apply [1, 0] (rowsOf m c) transposes_S10000x16_S16x10000_1_0 (ix2 e j) (ix2 j e)
      (fun b => match b with
        | ⟨0, _⟩ => rfl
        | ⟨1, _⟩ => rfl),
    broadcastInDim_apply _ bcast_S_S16x10000 (Host.divf (F := Ideal) (omegaOf m c) (tauOf m c)) (ix2 e j) ix0
      (fun a => a.elim0)]
  rfl

set_option maxHeartbeats 8000000 in
/-- The weight the region finds, at its one entry, is α. -/
theorem V_weight_apply (c : Dev nD) : (V m c main_v25 : FVec Ideal S1x1 .f32) (ix2 0 0) = alphaOf m c ix0 := by
  have e : @Eq (FVec Ideal S1x1 .f32) (V m c main_v25) (shapeCast S1x1 (alphaOf m c) shapeCasts_S_S1x1) := by
    dsimp only [V]
    simp only [hostOps0, hostOps0_1, hostOps0_2, hostOps0_3, hostOps0_4, hostOps0_5, hostOps0_6,
    List.flatten_cons, List.flatten_nil, List.append_nil, List.cons_append, List.nil_append]
    after_results_simp <;> rfl
  rw [e]
  exact shapeCast_apply (alphaOf m c) shapeCasts_S_S1x1 (ix2 0 0) ix0 rfl

end Cert.Blend

end
-- ==== Proof.RefRow.lean ====
/-
  The reference's first result, entry by entry.

  The reference blends the scores as  z (r, j) = α · log (prior (r, j) + ε) + (1 − α) · ((∑ e, Hn (r, e) · Hn (j, e)) / τ)
  — the product Hn · Hnᵀ first, the division by τ and the factor 1 − α after — and takes the softmax of each row:
  with M r the row's maximum (reduced from −∞ and then maximised once more against −∞),

      W (r, j) = exp (z (r, j) − M r) / (0 + ∑ j', exp (z (r, j') − M r)).

  Each stage of the reference's run is read at an index by its generated lemma; the one stage those do not read, the
  row maximum, is a fold of `max` from the initial word over the row's entries.
-/
import proofs.«163086_j18176301597000_2_alg».proof.Proof.ReadP
import Idealize.ShloMosaic.Lib.ValueIdx
import Idealize.ShloMosaic.PureOps.Ideal.Laws

noncomputable section

namespace Cert.Blend

open Cert.ReferenceIdeal Cert.ReferenceIdeal.Gen Cert.ReferenceIdeal.ReadP Idealize.ShloMosaic Idealize.ShloMosaic.ValueIdx

/-- THE REFERENCE'S SCORE AT AN ENTRY. -/
theorem ref_score (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal))
    (x6 x7 : (⟨S_, .f32⟩ : BufTy).Contents (Elt Ideal)) (r j : Fin 10000) :
    val_main_v32 (F := Ideal) x0 x1 x2 x3 x4 x5 x6 x7 (ix2 r j)
      = val_main_v19 (F := Ideal) x7 ix0 * Ideal.log (x1 (ix2 r j) + Ideal.ofBits .f32 0x2B8CBCCC#32)
        + val_main_v29 (F := Ideal) x7 ix0
          * Ideal.div (∑ e : Fin 16, val_main_v13 (F := Ideal) x0 x2 x3 x4 x5 (ix2 r e)
              * val_main_v13 (F := Ideal) x0 x2 x3 x4 x5 (ix2 j e)) (val_main_v15 (F := Ideal) x6 ix0) := by
  rw [val_main_v32_apply, val_main_v28_apply, val_main_v27_apply, val_main_v26_apply, val_main_v25_apply,
    val_main_v24_apply, val_main_cst_4_apply, val_main_v31_apply, val_main_v30_apply, val_main_v23_apply,
    val_main_v21_apply, val_main_v22_apply]
  simp only [val_main_v20_apply]
  have hl : ∀ k : Fin 16, lidx_main_v21 (ix2 r j) k = ix2 r k := fun k => funext fun a => Fin.ext (by
    match a with
    | ⟨0, _⟩ => rfl
    | ⟨1, _⟩ => rfl)
  have hr : ∀ k : Fin 16, idx_main_v20 (ridx_main_v21 (ix2 r j) k) = ix2 j k := fun k => funext fun a => Fin.ext (by
    match a with
    | ⟨0, _⟩ => rfl
    | ⟨1, _⟩ => rfl)
  simp only [hl, hr]
  rfl

/-- The index a reduction along the second axis reads for row r and column k is (r, k). -/
theorem ref_lift_row (h : S10000x10000.Reduces [1] S10000) (r k : Fin 10000) :
    h.lift (ix1 r) k = (ix2 r k : S10000x10000.Idx) :=
  funext fun a => Fin.ext (by
    match a with
    | ⟨0, _⟩ => rfl
    | ⟨1, _⟩ => rfl)

/-- THE ROW MAXIMUM: reduced from −∞ along the row, then maximised against −∞ once more. -/
theorem ref_rowmax (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal))
    (x6 x7 : (⟨S_, .f32⟩ : BufTy).Contents (Elt Ideal)) (r : Fin 10000) :
    val_main_v35 (F := Ideal) x0 x1 x2 x3 x4 x5 x6 x7 (ix1 r)
      = max (Ideal.ofBits .f32 0xFF800000#32) (Finset.univ.fold max (Ideal.ofBits .f32 0xFF800000#32)
          (fun k : Fin 10000 => val_main_v32 (F := Ideal) x0 x1 x2 x3 x4 x5 x6 x7 (ix2 r k))) := by
  rw [val_main_v35_apply, val_main_v34_apply, val_main_cst_7_apply]
  show max (Ideal.ofBits .f32 0xFF800000#32) (val_main_v33 (F := Ideal) x0 x1 x2 x3 x4 x5 x6 x7 (ix1 r)) = _
  refine congrArg (max (Ideal.ofBits .f32 0xFF800000#32)) ?_
  unfold val_main_v33
  generalize val_main_v32 (F := Ideal) x0 x1 x2 x3 x4 x5 x6 x7 = Z
  have hred : Shape.Reduces S10000x10000 [1] S10000 := by decide
  refine (Host.reduce_eq_fold_single (α := Ideal .f32) FloatOps.maximumf Z (val_main_cst_6 (F := Ideal))
    reducesTo_S10000x10000_S10000_d1 hred h_S_ (ix1 r)).trans ?_
  show Finset.univ.fold max (Ideal.ofBits .f32 0xFF800000#32) (Z ∘ _) = _
  exact congrArg (fun f => Finset.univ.fold max (Ideal.ofBits .f32 0xFF800000#32) f)
    (funext fun k => congrArg Z (ref_lift_row _ r k))

/-- exp (z − the row maximum) at an entry. -/
theorem ref_shifted (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal))
    (x6 x7 : (⟨S_, .f32⟩ : BufTy).Contents (Elt Ideal)) (r k : Fin 10000) :
    val_main_v39 (F := Ideal) x0 x1 x2 x3 x4 x5 x6 x7 (ix2 r k)
      = Ideal.exp (val_main_v32 (F := Ideal) x0 x1 x2 x3 x4 x5 x6 x7 (ix2 r k)
          - max (Ideal.ofBits .f32 0xFF800000#32) (Finset.univ.fold max (Ideal.ofBits .f32 0xFF800000#32)
              (fun k' : Fin 10000 => val_main_v32 (F := Ideal) x0 x1 x2 x3 x4 x5 x6 x7 (ix2 r k')))) := by
  rw [val_main_v39_apply, val_main_v38_apply, val_main_v37_apply, val_main_v36_apply]
  have hi : idx_main_v36 (idx_main_v37 (ix2 r k)) = ix1 r := funext fun a => Fin.ext (by
    match a with
    | ⟨0, _⟩ => rfl)
  rw [hi, ref_rowmax]
  rfl

/-- THE REFERENCE'S FIRST RESULT AT AN ENTRY: exp (z (r, j) − M r) / (0 + ∑ j', exp (z (r, j') − M r)). -/
theorem ref_out (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal))
    (x4 : (⟨S32x16, .f32⟩ : BufTy).Contents (Elt Ideal)) (x5 : (⟨S16, .f32⟩ : BufTy).Contents (Elt Ideal))
    (x6 x7 : (⟨S_, .f32⟩ : BufTy).Contents (Elt Ideal)) (r j : Fin 10000) :
    val_main_v43 (F := Ideal) x0 x1 x2 x3 x4 x5 x6 x7 (ix2 r j)
      = Ideal.div
          (Ideal.exp (val_main_v32 (F := Ideal) x0 x1 x2 x3 x4 x5 x6 x7 (ix2 r j)
            - max (Ideal.ofBits .f32 0xFF800000#32) (Finset.univ.fold max (Ideal.ofBits .f32 0xFF800000#32)
                (fun k : Fin 10000 => val_main_v32 (F := Ideal) x0 x1 x2 x3 x4 x5 x6 x7 (ix2 r k)))))
          (Ideal.ofBits .f32 0x00000000#32
            + ∑ k' : Fin 10000, Ideal.exp (val_main_v32 (F := Ideal) x0 x1 x2 x3 x4 x5 x6 x7 (ix2 r k')
                - max (Ideal.ofBits .f32 0xFF800000#32) (Finset.univ.fold max (Ideal.ofBits .f32 0xFF800000#32)
                    (fun k : Fin 10000 => val_main_v32 (F := Ideal) x0 x1 x2 x3 x4 x5 x6 x7 (ix2 r k))))) := by
  rw [val_main_v43_apply, val_main_v42_apply, val_main_v41_apply, val_main_v40_apply, val_main_cst_8_apply]
  have hi : ∀ k : Fin 10000, idx_main_v40 (idx_main_v41 (idx_main_v42 (ix2 r j))) k = ix2 r k := fun k =>
    funext fun a => Fin.ext (by
      match a with
      | ⟨0, _⟩ => rfl
      | ⟨1, _⟩ => rfl)
  simp only [hi, ref_shifted]
  rfl

end Cert.Blend

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.SoftmaxLaw.lean ====
/-
  Real-valued algebra of a scaled contraction and of a softmax row, on the extended reals.

  The extended reals carry the two infinities, and the laws used below — moving a constant factor across a finite sum,
  replacing "multiply by the reciprocal 1 / s" by "divide by s" — hold for real numbers and can fail at an infinity or
  at division's corner 0. Each statement therefore first shows that the terms involved are real numbers (and, for a
  divisor, nonzero), turns them into coerced reals, and finishes in the field of real numbers.

    * closure of "is a real number" under quotient by a nonzero real, difference, maximum, minimum, negation,
      exponential, logarithm of a positive real, and the maximum of finitely many (at least one) reals folded from the
      bottom element; the exponential of a real number is positive;
    * the two literal words 1.0 and minus infinity;
    * keys scaled before the contraction: sum_k a_k (b_k (w / tau)) = w ((sum_k a_k b_k) / tau);
    * the two normalisations of a softmax row: e_j * (1 / s) = e_j / s for s = sum_k e_k, e_k = exp (z_k - M), M = max_k z_k,
      because s is a real number and s > 0.
-/
import proofs.«163086_j18176301597000_2_alg».proof.Proof.LibRealValued
import Idealize.ShloMosaic.PureOps.Ideal

noncomputable section

namespace Cert.Blend

open Cert.RealValued Idealize.ShloMosaic

/-- The coercion of the reals into the extended reals goes through a finite sum. -/
private theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A coerced real is nonzero in the extended reals only if it is nonzero. -/
private theorem ne_zero_of_coe_ne_zero {t : ℝ} (h : (t : EReal) ≠ 0) : t ≠ 0 := by
  intro h0
  apply h
  rw [h0, EReal.coe_zero]

/-- A quotient of real numbers with a nonzero denominator is a real number. -/
theorem isReal_div {x y : EReal} (hx : IsReal x) (hy : IsReal y) (hy0 : y ≠ 0) : IsReal (Ideal.div x y) := by
  obtain ⟨r, rfl⟩ := hx
  obtain ⟨s, rfl⟩ := hy
  rw [Ideal.div_coe (ne_zero_of_coe_ne_zero hy0), ← EReal.coe_mul]
  exact ⟨_, rfl⟩

/-- The difference of two real numbers is a real number. -/
theorem isReal_sub {x y : EReal} (hx : IsReal x) (hy : IsReal y) : IsReal (x - y) := by
  obtain ⟨r, rfl⟩ := hx
  obtain ⟨s, rfl⟩ := hy
  exact ⟨r - s, (EReal.coe_sub r s).symm⟩

/-- The maximum of two real numbers is one of them. -/
theorem isReal_max {x y : EReal} (hx : IsReal x) (hy : IsReal y) : IsReal (max x y) := by
  rcases le_total x y with h | h
  · rw [max_eq_right h]; exact hy
  · rw [max_eq_left h]; exact hx

/-- The minimum of two real numbers is one of them. -/
theorem isReal_min {x y : EReal} (hx : IsReal x) (hy : IsReal y) : IsReal (min x y) := by
  rcases le_total x y with h | h
  · rw [min_eq_left h]; exact hx
  · rw [min_eq_right h]; exact hy

/-- The negative of a real number is a real number. -/
theorem isReal_neg {x : EReal} (hx : IsReal x) : IsReal (-x) := by
  obtain ⟨r, rfl⟩ := hx
  exact ⟨-r, (EReal.coe_neg r).symm⟩

/-- The exponential of a real number is a real number. -/
theorem isReal_exp {x : EReal} (hx : IsReal x) : IsReal (Ideal.exp x) := by
  obtain ⟨r, rfl⟩ := hx
  exact ⟨Real.exp r, Ideal.exp_coe r⟩

/-- The exponential of a real number is positive. -/
theorem exp_pos_of_isReal {x : EReal} (hx : IsReal x) : 0 < Ideal.exp x := by
  obtain ⟨r, rfl⟩ := hx
  rw [Ideal.exp_coe]
  exact EReal.coe_pos.mpr (Real.exp_pos r)

/-- The logarithm of a positive real number is a real number. -/
theorem isReal_log {x : EReal} (hx : IsReal x) (hpos : 0 < x) : IsReal (Ideal.log x) := by
  obtain ⟨r, rfl⟩ := hx
  have hr : 0 < r := EReal.coe_pos.mp hpos
  rw [Ideal.log_coe, if_neg (not_le.mpr hr)]
  exact ⟨_, rfl⟩

/-- The maximum, folded from the bottom element, of a nonempty finite family of real numbers is a real number: the
    first term met replaces the bottom element, and every later step is the maximum of two reals. -/
private theorem isReal_fold_max_of_nonempty {ι : Type} (z : ι → EReal) (hz : ∀ j, IsReal (z j)) (s : Finset ι) :
    s.Nonempty → IsReal (s.fold max ⊥ z) := by
  classical
  induction s using Finset.induction_on with
  | empty => intro h; exact absurd h Finset.not_nonempty_empty
  | insert a s ha ih =>
    intro _
    rw [Finset.fold_insert ha]
    rcases s.eq_empty_or_nonempty with hs | hs
    · rw [hs, Finset.fold_empty, max_eq_left bot_le]; exact hz a
    · exact isReal_max (hz a) (ih hs)

/-- The maximum of finitely many (at least one) real numbers, folded from the bottom element, is a real number. -/
theorem isReal_fold_max {ι : Type} [Fintype ι] [Nonempty ι] (z : ι → EReal) (hz : ∀ j, IsReal (z j)) :
    IsReal (Finset.univ.fold max ⊥ z) :=
  isReal_fold_max_of_nonempty z hz Finset.univ Finset.univ_nonempty

/-- The literal word 1.0: sign 0, exponent field 127 (the bias), significand field 0, so 2^23 * 2^(127 - 127 - 23) = 1. -/
theorem ofBits_one_f32 : Ideal.ofBits .f32 0x3F800000#32 = 1 := by
  simp [Ideal.ofBits, Ideal.ieee, -EReal.coe_mul]; norm_num

/-- The literal word minus infinity: sign 1, exponent field all ones, significand field 0. -/
theorem ofBits_negInf_f32 : Ideal.ofBits .f32 0xFF800000#32 = ⊥ := by
  simp [Ideal.ofBits, Ideal.ieee]

/-- KEYS SCALED BEFORE THE CONTRACTION: for real a, b, w and a real nonzero τ, contracting a against the keys b already
    multiplied by w/τ is w times the plain contraction divided by τ (moving a factor across a sum needs the terms to be
    real numbers). -/
theorem scaled_contraction {κ : Type} [Fintype κ] (a b : κ → EReal) (w τ : EReal)
    (ha : ∀ k, IsReal (a k)) (hb : ∀ k, IsReal (b k)) (hw : IsReal w) (hτ : IsReal τ) (hτ0 : τ ≠ 0) :
    ∑ k, a k * (b k * Ideal.div w τ) = w * Ideal.div (∑ k, a k * b k) τ := by
  obtain ⟨w', rfl⟩ := hw
  obtain ⟨t, rfl⟩ := hτ
  have ht : t ≠ 0 := ne_zero_of_coe_ne_zero hτ0
  choose a' ha' using ha
  choose b' hb' using hb
  have hL : ∀ k, a k * (b k * Ideal.div (w' : EReal) (t : EReal)) = ((a' k * (b' k * (w' * (1 / t))) : ℝ) : EReal) := by
    intro k
    rw [ha' k, hb' k, Ideal.div_coe ht, ← EReal.coe_mul, ← EReal.coe_mul, ← EReal.coe_mul]
  have hR : ∀ k, a k * b k = ((a' k * b' k : ℝ) : EReal) := by
    intro k
    rw [ha' k, hb' k, ← EReal.coe_mul]
  rw [Finset.sum_congr rfl (fun k _ => hL k), Finset.sum_congr rfl (fun k _ => hR k), ← coe_sum, ← coe_sum,
    Ideal.div_coe ht, ← EReal.coe_mul, ← EReal.coe_mul]
  congr 1
  rw [Finset.sum_mul, Finset.mul_sum]
  exact Finset.sum_congr rfl fun k _ => by ring

/-- THE TWO NORMALISATIONS OF A SOFTMAX ROW: for a row z of real scores (at least one), with M its maximum, multiplying
    exp (z j − M) by the reciprocal 1 / s of the row sum s = ∑ exp (z k − M) is dividing by s: s is a real number and
    s > 0 (every term is a positive real), so neither side meets division's corner at 0. -/
theorem softmax_forms {ι : Type} [Fintype ι] [Nonempty ι] (z : ι → EReal) (hz : ∀ j, IsReal (z j)) (j : ι) :
    Ideal.exp (z j - Finset.univ.fold max ⊥ z) * Ideal.div 1 (∑ k, Ideal.exp (z k - Finset.univ.fold max ⊥ z))
      = Ideal.div (Ideal.exp (z j - Finset.univ.fold max ⊥ z)) (∑ k, Ideal.exp (z k - Finset.univ.fold max ⊥ z)) := by
  obtain ⟨m, hm⟩ := isReal_fold_max z hz
  rw [hm]
  -- every term exp (z k − M) is the coercion of a positive real
  have hterm : ∀ k, ∃ r : ℝ, 0 < r ∧ Ideal.exp (z k - (m : EReal)) = (r : EReal) := by
    intro k
    obtain ⟨x, hx⟩ := hz k
    refine ⟨Real.exp (x - m), Real.exp_pos _, ?_⟩
    rw [hx, ← EReal.coe_sub, Ideal.exp_coe]
  choose e he_pos he using hterm
  -- so the row sum is the coercion of a positive real
  have hsum : ∑ k, Ideal.exp (z k - (m : EReal)) = ((∑ k, e k : ℝ) : EReal) := by
    rw [coe_sum]
    exact Finset.sum_congr rfl fun k _ => he k
  have hpos : 0 < ∑ k, e k := Finset.sum_pos (fun k _ => he_pos k) Finset.univ_nonempty
  rw [hsum, Ideal.div_coe hpos.ne', Ideal.div_coe hpos.ne', one_mul]

end Cert.Blend

end
-- ==== Proof.Bridge.lean ====
/-
  The law that joins the kernel's row to the reference's row.

  Fix a row. Write a for the weight α = sigmoid (raw_alpha), w = 1 − α, τ for the clipped temperature, ℓ k for
  log (prior (r, k) + ε), h for the row's normalised embedding and H k for the normalised embedding of row k.

  * The kernel contracts h against keys ALREADY multiplied by w / τ:      z k = a · ℓ k + ∑ e, h e · (H k e · (w / τ)).
  * The reference contracts first and scales after:                        z' k = a · ℓ k + w · ((∑ e, h e · H k e) / τ).
    For real numbers (τ ≠ 0) these are equal: a constant factor moves across a finite sum.
  * The kernel normalises by the reciprocal, exp (z j − M) · (1 / s); the reference divides, exp (z j − M') / (0 + s'),
    with M' = max (−∞, M). For a row of real scores the row sum is a positive real, so the two agree.

  Everything is a real number here because the inputs are finite, τ lies between two positive words, and the prior
  plus ε is positive (the logarithm stays inside its domain).
-/
import proofs.«163086_j18176301597000_2_alg».proof.Proof.SoftmaxLaw
import proofs.«163086_j18176301597000_2_alg».proof.Proof.Spec
import Idealize.ShloMosaic.PureOps.Ideal.Laws

noncomputable section

namespace Cert.Blend

open Cert.RealValued Idealize.ShloMosaic

/-- THE ROW LAW. The kernel's row (keys scaled before the contraction, normalised by the reciprocal of the sum) is the
    reference's row (scaled after the contraction, divided by the sum, the maximum taken once more against −∞ and the
    sum started from the zero word). -/
theorem row_law (a w τ : EReal) (ℓ : Fin 10000 → EReal) (h : Fin 16 → EReal) (H : Fin 10000 → Fin 16 → EReal)
    (ha : IsReal a) (hw : IsReal w) (hτ : IsReal τ) (hτ0 : τ ≠ 0) (hℓ : ∀ k, IsReal (ℓ k)) (hh : ∀ e, IsReal (h e))
    (hH : ∀ k e, IsReal (H k e)) (j : Fin 10000) :
    softRecipAt (fun k => a * ℓ k + ∑ e : Fin 16, h e * (H k e * Ideal.div w τ)) j
      = Ideal.div
          (Ideal.exp ((a * ℓ j + w * Ideal.div (∑ e : Fin 16, h e * H j e) τ)
            - max (Ideal.ofBits .f32 0xFF800000#32)
                (Finset.univ.fold max (Ideal.ofBits .f32 0xFF800000#32)
                  (fun k : Fin 10000 => a * ℓ k + w * Ideal.div (∑ e : Fin 16, h e * H k e) τ))))
          (Ideal.ofBits .f32 0x00000000#32
            + ∑ k' : Fin 10000, Ideal.exp ((a * ℓ k' + w * Ideal.div (∑ e : Fin 16, h e * H k' e) τ)
                - max (Ideal.ofBits .f32 0xFF800000#32)
                    (Finset.univ.fold max (Ideal.ofBits .f32 0xFF800000#32)
                      (fun k : Fin 10000 => a * ℓ k + w * Ideal.div (∑ e : Fin 16, h e * H k e) τ)))) := by
  haveI : Nonempty (Fin 10000) := ⟨⟨0, by decide⟩⟩
  -- the reference's row of scores
  let z : Fin 10000 → EReal := fun k => a * ℓ k + w * Ideal.div (∑ e : Fin 16, h e * H k e) τ
  have hz : ∀ k, IsReal (z k) := fun k =>
    (ha.mul (hℓ k)).add (hw.mul (isReal_div (isReal_sum _ _ fun e _ => (hh e).mul (hH k e)) hτ hτ0))
  -- the kernel's row of scores is the same row
  have hk : (fun k => a * ℓ k + ∑ e : Fin 16, h e * (H k e * Ideal.div w τ)) = z :=
    funext fun k => by
      show _ = a * ℓ k + w * Ideal.div (∑ e : Fin 16, h e * H k e) τ
      rw [scaled_contraction h (H k) w τ hh (hH k) hw hτ hτ0]
  rw [hk]
  show softRecipAt z j = Ideal.div (Ideal.exp (z j - max (Ideal.ofBits .f32 0xFF800000#32)
      (Finset.univ.fold max (Ideal.ofBits .f32 0xFF800000#32) z)))
    (Ideal.ofBits .f32 0x00000000#32 + ∑ k' : Fin 10000, Ideal.exp (z k' - max (Ideal.ofBits .f32 0xFF800000#32)
      (Finset.univ.fold max (Ideal.ofBits .f32 0xFF800000#32) z)))
  unfold softRecipAt
  rw [max_negInf_left, Ideal.ofBits_zero_f32, zero_add, ofBits_negInf_f32, ofBits_one_f32]
  exact softmax_forms z hz j

end Cert.Blend

end
-- ==== Proof.EncoderReal.lean ====
/-
  The encoder's intermediate arrays are real numbers when the inputs are.

  The encoder computes, from a feature matrix X and two dense layers (W1, b1), (W2, b2),

    H  = relu (X · W1 + b1) · W2 + b2,        n = sqrt (∑ H²)  (one number per row),
    Hn = H / max (n, ε),                      τ = min (10, max (0.1, exp log_tau)),
    α  = 1 / (1 + exp (− raw_alpha)),         and 1 − α,

  on the extended reals, where a sum, a product, a quotient can meet an infinity or division's corner at 0. When every
  input entry is a real number, every one of these intermediate values is a real number, and the two divisors are
  nonzero:

    * a finite sum of products of reals, a maximum with the zero word, a sum with a bias: H is real;
    * the square root of a real number is a real number or (below zero) the bottom element, never +∞, so its maximum with
      the positive real word ε is a real number that is at least ε, hence positive: the divisor of Hn is real and nonzero
      without knowing that a sum of squares is nonnegative;
    * the exponential of a real number is a positive real number, so max (0.1, exp ·) is a positive real whatever the
      word 0.1 is, and its minimum with the positive real word 10 is a positive real: τ is real and nonzero;
    * 1 + exp (−x) is a positive real, so its reciprocal α is real, and so is 1 − α.

  A literal is kept as its word; a word with sign bit 0 whose exponent field is neither zero nor all ones denotes the
  positive real (2^m + T) · 2^(E − bias − m).
-/
import proofs.«163086_j18176301597000_2_alg».proof.Proof.ReadP
import proofs.«163086_j18176301597000_2_alg».proof.Proof.LibRealValued
import proofs.«163086_j18176301597000_2_alg».proof.Proof.SoftmaxLaw

noncomputable section

namespace Cert.Blend

open Cert.RealValued Idealize.ShloMosaic Cert.ReferenceIdeal Cert.ReferenceIdeal.ReadP

/-! ## Words and scalar facts -/

/-- A float pattern with sign bit 0 whose exponent field is neither all ones nor zero denotes a positive real number:
    it is (2^m + T) · 2^(E − bias − m), a product of two positive factors. -/
private theorem ieee_pos (e m : Nat) {w : Nat} (b : BitVec w)
    (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  unfold Ideal.ieee
  dsimp only
  rw [if_neg h1, if_neg h0, hs, if_neg Bool.false_ne_true, one_mul]
  refine ⟨_, ?_, rfl⟩
  positivity

/-- An f32 word with sign bit 0 and exponent field neither 0 nor 255 is a positive real number. -/
private theorem word_pos (b : BitVec 32) (hs : (b.extractLsb' (8 + 23) 1 == 1#1) = false)
    (h1 : (b.extractLsb' 23 8).toNat ≠ 2 ^ 8 - 1) (h0 : (b.extractLsb' 23 8).toNat ≠ 0) :
    IsReal (Ideal.ofBits .f32 b) ∧ 0 < Ideal.ofBits .f32 b := by
  obtain ⟨r, hr, h⟩ := ieee_pos 8 23 b hs h1 h0
  have e : Ideal.ofBits .f32 b = (r : EReal) := h
  rw [e]
  exact ⟨⟨r, rfl⟩, EReal.coe_pos.mpr hr⟩

/-- An f32 word whose exponent field is not 255 is a real number. -/
private theorem word_real (b : BitVec 32) (h : (b.extractLsb' 23 8).toNat ≠ 2 ^ 8 - 1) :
    IsReal (Ideal.ofBits .f32 b) :=
  ieee_isReal 8 23 b h

/-- The word ε = 0x2B8CBCCC (about 1e-12; exponent field 87) is a positive real number. -/
private theorem eps_pos : IsReal (Ideal.ofBits .f32 0x2B8CBCCC#32) ∧ 0 < Ideal.ofBits .f32 0x2B8CBCCC#32 :=
  word_pos 0x2B8CBCCC#32 (by decide) (by decide) (by decide)

/-- The word 0x41200000 (ten; exponent field 130) is a positive real number. -/
private theorem ten_pos : IsReal (Ideal.ofBits .f32 0x41200000#32) ∧ 0 < Ideal.ofBits .f32 0x41200000#32 :=
  word_pos 0x41200000#32 (by decide) (by decide) (by decide)

/-- The word 0x3F800000 (one; exponent field 127) is a positive real number. -/
private theorem one_pos_word : IsReal (Ideal.ofBits .f32 0x3F800000#32) ∧ 0 < Ideal.ofBits .f32 0x3F800000#32 :=
  word_pos 0x3F800000#32 (by decide) (by decide) (by decide)

/-- The square root of a real number is a real number, or the bottom element when the number is negative. -/
private theorem sqrt_real_or_bot {a : EReal} (ha : IsReal a) : Ideal.sqrt a = ⊥ ∨ IsReal (Ideal.sqrt a) := by
  obtain ⟨r, rfl⟩ := ha
  rw [Ideal.sqrt_coe]
  by_cases h : r < 0
  · left; rw [if_pos h]
  · right; rw [if_neg h]; exact ⟨_, rfl⟩

/-- The maximum of the square root of a real number with a positive real ε is a positive real number: the bottom
    element gives ε itself, a real square root gives the maximum of two reals, and either is at least ε. -/
private theorem real_sqrt_max {a ε : EReal} (ha : IsReal a) (hε : IsReal ε) (hpos : 0 < ε) :
    IsReal (max (Ideal.sqrt a) ε) ∧ 0 < max (Ideal.sqrt a) ε := by
  refine ⟨?_, lt_of_lt_of_le hpos (le_max_right _ _)⟩
  rcases sqrt_real_or_bot ha with h | h
  · rw [h, max_eq_right bot_le]; exact hε
  · exact isReal_max h hε

/-- The sum of two positive real numbers is a positive real number. -/
private theorem real_pos_add {a b : EReal} (ha : IsReal a) (hb : IsReal b) (ha0 : 0 < a) (hb0 : 0 < b) :
    IsReal (a + b) ∧ 0 < a + b := by
  obtain ⟨r, rfl⟩ := ha
  obtain ⟨s, rfl⟩ := hb
  rw [← EReal.coe_add]
  exact ⟨⟨_, rfl⟩, EReal.coe_pos.mpr (add_pos (EReal.coe_pos.mp ha0) (EReal.coe_pos.mp hb0))⟩

/-- Clipping a positive real e into [lo, hi], for a real lo and a positive real hi, gives a positive real: max (lo, e) is
    at least e, and the minimum of two positive reals is one of them. -/
private theorem real_clip {lo hi e : EReal} (hlo : IsReal lo) (hhi : IsReal hi) (hhi0 : 0 < hi) (he : IsReal e)
    (he0 : 0 < e) : IsReal (min hi (max lo e)) ∧ min hi (max lo e) ≠ 0 := by
  have hmax : IsReal (max lo e) := isReal_max hlo he
  have hmax0 : 0 < max lo e := lt_of_lt_of_le he0 (le_max_right _ _)
  exact ⟨isReal_min hhi hmax, (lt_min hhi0 hmax0).ne'⟩

/-- For a positive real c and a real x, c / (c + exp (−x)) is a real number: the divisor is a positive real. -/
private theorem real_logistic {c x : EReal} (hc : IsReal c) (hc0 : 0 < c) (hx : IsReal x) :
    IsReal (Ideal.div c (c + Ideal.exp (-x))) := by
  have h := real_pos_add hc (isReal_exp (isReal_neg hx)) hc0 (exp_pos_of_isReal (isReal_neg hx))
  exact isReal_div hc h.1 h.2.ne'

/-! ## The dense layers: H = relu (X · W1 + b1) · W2 + b2 -/

/-- X · W1: a finite sum of products of reals. -/
private theorem v0_isReal (x0 : (⟨S10000x128, .f32⟩ : BufTy).Contents (Elt Ideal)) (x2 : (⟨S128x32, .f32⟩ : BufTy).Contents (Elt Ideal))
    (h0 : ∀ i, IsReal (x0 i)) (h2 : ∀ i, IsReal (x2 i)) (i : S10000x32.Idx) :
    IsReal (val_main_v0 (F := Ideal) x0 x2 i) := by
  rw [val_main_v0_apply]
  refine isReal_sum _ _ ?_
  intro k _
  exact (h0 _).mul (h2 _)

/-- The bias b1 read along the rows. -/
private theorem v2_isReal (x3 : (⟨S32, .f32⟩ : BufTy).Contents (Elt Ideal)) (h3 : ∀ i, IsReal (x3 i)) (i : S10000x32.Idx) :
    IsReal (val_main_v2 (F := Ideal) x3 i) := by
  rw [val_main_v2_apply, val_main_v1_apply]
  exact h3 _

/-- X · W1 + b1. -/
private theorem v3_isReal (x0 : (⟨S10000x128, .f32⟩ : BufTy).Contents (Elt Ideal)) (x2 : (⟨S128x32, .f32⟩ : BufTy).Contents (Elt Ideal)) (x3 : (⟨S32, .f32⟩ : BufTy).Contents (Elt Ideal))
    (h0 : ∀ i, IsReal (x0 i)) (h2 : ∀ i, IsReal (x2 i)) (h3 : ∀ i, IsReal (x3 i)) (i : S10000x32.Idx) :
    IsReal (val_main_v3 (F := Ideal) x0 x2 x3 i) := by
  rw [val_main_v3_apply]
  exact (v0_isReal x0 x2 h0 h2 i).add (v2_isReal x3 h3 i)

/-- relu: the maximum with the zero word, which is a real number. -/
private theorem v4_isReal (x0 : (⟨S10000x128, .f32⟩ : BufTy).Contents (Elt Ideal)) (x2 : (⟨S128x32, .f32⟩ : BufTy).Contents (Elt Ideal)) (x3 : (⟨S32, .f32⟩ : BufTy).Contents (Elt Ideal))
    (h0 : ∀ i, IsReal (x0 i)) (h2 : ∀ i, IsReal (x2 i)) (h3 : ∀ i, IsReal (x3 i)) (i : S10000x32.Idx) :
    IsReal (val_main_v4 (F := Ideal) x0 x2 x3 i) := by
  rw [val_main_v4_apply, val_main_call0_v0_apply, val_main_call0_cst_apply]
  exact isReal_max (v3_isReal x0 x2 x3 h0 h2 h3 i) (word_real 0x00000000#32 (by decide))

/-- relu (X · W1 + b1) · W2: a finite sum of products of reals. -/
private theorem v5_isReal (x0 : (⟨S10000x128, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal))
    (h0 : ∀ i, IsReal (x0 i)) (h2 : ∀ i, IsReal (x2 i)) (h3 : ∀ i, IsReal (x3 i)) (h4 : ∀ i, IsReal (x4 i)) (i : S10000x16.Idx) :
    IsReal (val_main_v5 (F := Ideal) x0 x2 x3 x4 i) := by
  rw [val_main_v5_apply]
  refine isReal_sum _ _ ?_
  intro k _
  exact (v4_isReal x0 x2 x3 h0 h2 h3 _).mul (h4 _)

/-- The bias b2 read along the rows. -/
private theorem v7_isReal (x5 : (⟨S16, .f32⟩ : BufTy).Contents (Elt Ideal)) (h5 : ∀ i, IsReal (x5 i)) (i : S10000x16.Idx) :
    IsReal (val_main_v7 (F := Ideal) x5 i) := by
  rw [val_main_v7_apply, val_main_v6_apply]
  exact h5 _

/-- H = relu (X · W1 + b1) · W2 + b2 is real when X, W1, b1, W2, b2 are. -/
theorem H_isReal (x0 : (⟨S10000x128, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal))
    (h0 : ∀ i, IsReal (x0 i)) (h2 : ∀ i, IsReal (x2 i)) (h3 : ∀ i, IsReal (x3 i)) (h4 : ∀ i, IsReal (x4 i)) (h5 : ∀ i, IsReal (x5 i)) :
    ∀ i, IsReal (val_main_v8 (F := Ideal) x0 x2 x3 x4 x5 i) := by
  intro i
  rw [val_main_v8_apply]
  exact (v5_isReal x0 x2 x3 x4 h0 h2 h3 h4 i).add (v7_isReal x5 h5 i)

/-! ## The row norm and the normalised rows: Hn = H / max (sqrt (∑ H²), ε) -/

/-- The sum of squares of a row of H, started from the zero word: a real number. -/
private theorem sumsq_isReal (x0 : (⟨S10000x128, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal))
    (h0 : ∀ i, IsReal (x0 i)) (h2 : ∀ i, IsReal (x2 i)) (h3 : ∀ i, IsReal (x3 i)) (h4 : ∀ i, IsReal (x4 i)) (h5 : ∀ i, IsReal (x5 i)) (i : S10000.Idx) :
    IsReal (val_main_call1_v1 (F := Ideal) x0 x2 x3 x4 x5 i) := by
  rw [val_main_call1_v1_apply, val_main_call1_cst_apply]
  refine IsReal.add (word_real 0x00000000#32 (by decide)) (isReal_sum _ _ ?_)
  intro k _
  rw [val_main_call1_v0_apply]
  exact (H_isReal x0 x2 x3 x4 x5 h0 h2 h3 h4 h5 _).mul (H_isReal x0 x2 x3 x4 x5 h0 h2 h3 h4 h5 _)

/-- The divisor max (sqrt (∑ H²), ε) is a positive real number. -/
private theorem denom_pos (x0 : (⟨S10000x128, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal))
    (h0 : ∀ i, IsReal (x0 i)) (h2 : ∀ i, IsReal (x2 i)) (h3 : ∀ i, IsReal (x3 i)) (h4 : ∀ i, IsReal (x4 i)) (h5 : ∀ i, IsReal (x5 i)) (i : S10000x1.Idx) :
    IsReal (val_main_v11 (F := Ideal) x0 x2 x3 x4 x5 i) ∧ 0 < val_main_v11 (F := Ideal) x0 x2 x3 x4 x5 i := by
  rw [val_main_v11_apply, val_main_v9_apply, val_main_call1_v2_apply, val_main_v10_apply, val_main_cst_apply]
  exact real_sqrt_max (sumsq_isReal x0 x2 x3 x4 x5 h0 h2 h3 h4 h5 _) eps_pos.1 eps_pos.2

/-- Hn = H / max (sqrt (∑ H²), ε) is real when X, W1, b1, W2, b2 are: a real divided by a nonzero real. -/
theorem Hn_isReal (x0 : (⟨S10000x128, .f32⟩ : BufTy).Contents (Elt Ideal)) (x2 : (⟨S128x32, .f32⟩ : BufTy).Contents (Elt Ideal)) (x3 : (⟨S32, .f32⟩ : BufTy).Contents (Elt Ideal)) (x4 : (⟨S32x16, .f32⟩ : BufTy).Contents (Elt Ideal)) (x5 : (⟨S16, .f32⟩ : BufTy).Contents (Elt Ideal))
    (h0 : ∀ i, IsReal (x0 i)) (h2 : ∀ i, IsReal (x2 i)) (h3 : ∀ i, IsReal (x3 i)) (h4 : ∀ i, IsReal (x4 i)) (h5 : ∀ i, IsReal (x5 i)) :
    ∀ i, IsReal (val_main_v13 (F := Ideal) x0 x2 x3 x4 x5 i) := by
  intro i
  rw [val_main_v13_apply, val_main_v12_apply]
  have hd := denom_pos x0 x2 x3 x4 x5 h0 h2 h3 h4 h5 (idx_main_v12 i)
  exact isReal_div (H_isReal x0 x2 x3 x4 x5 h0 h2 h3 h4 h5 i) hd.1 hd.2.ne'

/-! ## The temperature τ = min (10, max (0.1, exp log_tau)) -/

/-- τ is a real number and is not zero when log_tau is real. -/
theorem tau_isReal (x6 : (⟨S_, .f32⟩ : BufTy).Contents (Elt Ideal)) (h6 : ∀ i, IsReal (x6 i)) :
    ∀ i, IsReal (val_main_v15 (F := Ideal) x6 i) ∧ val_main_v15 (F := Ideal) x6 i ≠ 0 := by
  intro i
  rw [val_main_v15_apply, val_main_call2_v2_apply, val_main_cst_1_apply, val_main_call2_v1_apply,
    val_main_call2_v0_apply, val_main_cst_0_apply, val_main_v14_apply]
  exact real_clip (word_real 0x3DCCCCCD#32 (by decide)) ten_pos.1 ten_pos.2 (isReal_exp (h6 i))
    (exp_pos_of_isReal (h6 i))

/-! ## The blend weight α = 1 / (1 + exp (− raw_alpha)) and 1 − α -/

/-- α is a real number when raw_alpha is real. -/
theorem alpha_isReal (x7 : (⟨S_, .f32⟩ : BufTy).Contents (Elt Ideal)) (h7 : ∀ i, IsReal (x7 i)) :
    ∀ i, IsReal (val_main_v19 (F := Ideal) x7 i) := by
  intro i
  rw [val_main_v19_apply, val_main_cst_3_apply, val_main_v18_apply, val_main_cst_2_apply, val_main_v17_apply,
    val_main_v16_apply]
  exact real_logistic one_pos_word.1 one_pos_word.2 (h7 i)

/-- 1 − α is a real number when raw_alpha is real. -/
theorem one_sub_alpha_isReal (x7 : (⟨S_, .f32⟩ : BufTy).Contents (Elt Ideal)) (h7 : ∀ i, IsReal (x7 i)) :
    ∀ i, IsReal (val_main_v29 (F := Ideal) x7 i) := by
  intro i
  rw [val_main_v29_apply, val_main_cst_5_apply]
  exact isReal_sub one_pos_word.1 (alpha_isReal x7 h7 i)

end Cert.Blend

end
-- ==== Proof.InputFacts.lean ====
/-
  The certificate's precondition read back as facts about the argument arrays.

  The precondition is a conjunction of nine conditions. Eight say, one for each float argument, that every entry a has
  |a| < +inf, where |a| = max a (-a) is +inf at either infinity: so every entry of every argument is a real number.
  (For the two scalar arguments the comparison is with the +inf constant itself and the "all entries" reduction runs over
  no axis; for the six arrays the constant is first broadcast to the array's shape and the reduction runs over every axis.)
  The ninth says that every entry a of the second argument has a + eps > 0, with eps a float constant that is kept as
  its bit pattern and is never evaluated.

  A conjunction of one-bit words is 1 exactly when both words are 1, and an "and"-reduction over all axes that comes out 1
  had a 1 at every index; a comparison "x > 0" on the extended reals that came out 1 says 0 < x.
-/
import proofs.«163086_j18176301597000_2_alg».proof.Pre_finite_inputs
import proofs.«163086_j18176301597000_2_alg».proof.Proof.Gen.Pre_finite_inputs
import proofs.«163086_j18176301597000_2_alg».proof.Proof.LibRealValued
import Idealize.ShloMosaic.PureOps.Ideal.Laws
import Idealize.ShloMosaic.Lib.ReduceAll
import Idealize.ShloMosaic.Lib.ValueIdx

noncomputable section

namespace Cert.Blend

open Cert.RealValued Idealize.ShloMosaic Idealize.ShloMosaic.ValueIdx

/-- The elementwise "and" of two one-bit arrays is 1 at an index exactly when both arrays are 1 there. -/
theorem andi_apply_eq_one {s : Shape} (x y : IVec s 1) (i : s.Idx) :
    andi x y i = 1#1 ↔ x i = 1#1 ∧ y i = 1#1 := IntOp.andi_eq_one

/-- The comparison "a > 0" (against the float pattern of zero) on the extended reals, when it comes out 1, says 0 < a. -/
theorem pos_of_cmp_ogt_zero (a : EReal)
    (h : Ideal.cmp .ogt a (Ideal.ofBits .f32 0x00000000#32) = 1#1) : 0 < a := by
  rw [Ideal.ofBits_zero_f32] at h
  by_contra hn
  simp [Ideal.cmp, hn] at h

/-- The scalar shape has one index. -/
instance subsingleton_scalar_idx : Subsingleton (⟨0, ![]⟩ : Shape).Idx := ⟨fun a b => funext fun d => d.elim0⟩

/-- One scalar conjunct of the finiteness precondition: the reduction over no axis of the comparison of |a| with the
    +inf pattern is 1, so the scalar a is a real number. -/
theorem scalar_isReal (a : FVec Ideal ⟨0, ![]⟩ .f32)
    (h' : (⟨0, ![]⟩ : Shape).ReducesTo ([] : List (Fin (⟨0, ![]⟩ : Shape).rank)) ⟨0, ![]⟩)
    (hu : 0 < (⟨0, ![]⟩ : Shape).numel)
    (e : Host.reduce IntOp.andi
      (cmpf .olt (Host.absf a) (constant (F := Ideal) ⟨0, ![]⟩ .f32 0x7F800000#32))
      (constantI ⟨0, ![]⟩ 1 1#1) h' hu ix0 = 1#1) (i : (⟨0, ![]⟩ : Shape).Idx) : IsReal (a i) :=
  isReal_of_abs_lt_inf (a i) (Host.reduce_andi_all _ _ h' hu ix0 e i)

/-- The positivity conjunct: the reduction over every axis of the comparison "a + eps > 0", both constants broadcast from
    scalars, is 1, so every entry has 0 < a + eps. -/
theorem all_offset_pos {s : Shape} {axes : List (Fin s.rank)} (a : FVec Ideal s .f32) (w : BitVec 32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .ogt (addf a (broadcastInDim s dims bc (constant (F := Ideal) ⟨0, ![]⟩ .f32 w)))
        (broadcastInDim s dims bc (constant (F := Ideal) ⟨0, ![]⟩ .f32 0x00000000#32)))
      (constantI ⟨0, ![]⟩ 1 1#1) h' hu ix0 = 1#1) (i : s.Idx) : 0 < a i + Ideal.ofBits .f32 w :=
  pos_of_cmp_ogt_zero _ (Host.reduce_andi_all _ _ h' hu ix0 e i)

/-- The precondition gives: every entry of every argument is a real number, and every entry of the second argument plus the
    offset constant is positive. -/
theorem pre_facts [Cert.Pre_finite_inputs.Facts]
    (x0 : FVec Ideal Cert.Pre_finite_inputs.S10000x128 .f32) (x1 : FVec Ideal Cert.Pre_finite_inputs.S10000x10000 .f32)
    (x2 : FVec Ideal Cert.Pre_finite_inputs.S128x32 .f32) (x3 : FVec Ideal Cert.Pre_finite_inputs.S32 .f32)
    (x4 : FVec Ideal Cert.Pre_finite_inputs.S32x16 .f32) (x5 : FVec Ideal Cert.Pre_finite_inputs.S16 .f32)
    (x6 : FVec Ideal Cert.Pre_finite_inputs.S_ .f32) (x7 : FVec Ideal Cert.Pre_finite_inputs.S_ .f32)
    (h : Cert.Pre_finite_inputs.fn (F := Ideal) x0 x1 x2 x3 x4 x5 x6 x7 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) ∧ (∀ i, 0 < x1 i + Ideal.ofBits .f32 0x2B8CBCCC#32) := by
  -- the one-bit result at the scalar index, with the chain of operations unfolded
  have h0 := congrFun h ix0
  dsimp only [Cert.Pre_finite_inputs.fn, Cert.Pre_finite_inputs.fn_part1, Cert.Pre_finite_inputs.fn_part2] at h0
  -- the left-nested conjunction, split from the outside in: the ninth conjunct first, the first two last
  rw [andi_apply_eq_one] at h0
  obtain ⟨h0, c9⟩ := h0
  rw [andi_apply_eq_one] at h0
  obtain ⟨h0, c8⟩ := h0
  rw [andi_apply_eq_one] at h0
  obtain ⟨h0, c7⟩ := h0
  rw [andi_apply_eq_one] at h0
  obtain ⟨h0, c6⟩ := h0
  rw [andi_apply_eq_one] at h0
  obtain ⟨h0, c5⟩ := h0
  rw [andi_apply_eq_one] at h0
  obtain ⟨h0, c4⟩ := h0
  rw [andi_apply_eq_one] at h0
  obtain ⟨h0, c3⟩ := h0
  rw [andi_apply_eq_one] at h0
  obtain ⟨c1, c2⟩ := h0
  exact ⟨all_isReal x0 _ _ _ _ c1, all_isReal x1 _ _ _ _ c2, all_isReal x2 _ _ _ _ c3, all_isReal x3 _ _ _ _ c4,
    all_isReal x4 _ _ _ _ c5, all_isReal x5 _ _ _ _ c6, scalar_isReal x6 _ _ c7, scalar_isReal x7 _ _ c8,
    all_offset_pos x1 _ _ _ _ _ c9⟩

end Cert.Blend

end
-- ==== Proof.Equal.lean ====
/-
  The two first results are one array.

  For arguments that satisfy the precondition — every float input a real number, and prior + ε > 0 entry by entry —
  the array the kernel's 50 blocks make up is, index by index, the reference's softmax array. At the index (r, j):

    * the kernel's score row is α · log (prior (r, k) + ε) + ∑ e, Hn (r, e) · (Hn (k, e) · ((1 − α) / τ)), from what
      the region finds in its four arrays;
    * the reference's is α · log (prior (r, k) + ε) + (1 − α) · ((∑ e, Hn (r, e) · Hn (k, e)) / τ);
    * Hn, τ, α, 1 − α are real numbers and τ ≠ 0, and log (prior + ε) is a real number because prior + ε is a positive real;
      so the row law applies: both the scores and the two normalisations agree.
-/
import proofs.«163086_j18176301597000_2_alg».proof.Proof.Blocks
import proofs.«163086_j18176301597000_2_alg».proof.Proof.HostSide
import proofs.«163086_j18176301597000_2_alg».proof.Proof.RefRow
import proofs.«163086_j18176301597000_2_alg».proof.Proof.Bridge
import proofs.«163086_j18176301597000_2_alg».proof.Proof.EncoderReal
import proofs.«163086_j18176301597000_2_alg».proof.Proof.InputFacts

noncomputable section

namespace Cert.Blend

open Cert.KernelIdeal Cert.KernelIdeal.Gen Idealize.ShloMosaic Idealize.ShloMosaic.TcCoe Idealize.SL.Sem
open Idealize.ShloMosaic.ValueIdx Cert.RealValued

variable (m : (ℓ : Loc nD τ sig) → Buf (Elt Ideal) ℓ)

/-- The ε word 0x2B8CBCCC is a real number (its exponent field is not all ones). -/
theorem eps_isReal : IsReal (Ideal.ofBits .f32 0x2B8CBCCC#32) := by
  show IsReal (Ideal.ieee 8 23 (0x2B8CBCCC#32 : BitVec 32))
  exact ieee_isReal 8 23 _ (by decide)

/-- The prior as launched, typed as the array of extended reals it is. -/
abbrev priorOf (c : Dev nD) : FVec Ideal S10000x10000 .f32 := (m ((c : Thread nD τ).loc main_arg1))

/-- THE FIRST RESULT: under the precondition the kernel's whole-array function of what the region finds is the
    reference's softmax stage of the arguments. -/
theorem result_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = fun _ => 1#1) :
    result m c = Cert.ReferenceIdeal.ReadP.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  obtain ⟨h0, h1, h2, h3, h4, h5, h6, h7, hpos⟩ := pre_facts _ _ _ _ _ _ _ _ hpre
  have hHn := Hn_isReal (m ((c : Thread nD τ).loc main_arg0)) (m ((c : Thread nD τ).loc main_arg2)) (m ((c : Thread nD τ).loc main_arg3)) (m ((c : Thread nD τ).loc main_arg4)) (m ((c : Thread nD τ).loc main_arg5)) h0 h2 h3 h4 h5
  have hτ := tau_isReal (m ((c : Thread nD τ).loc main_arg6)) h6
  have hα := alpha_isReal (m ((c : Thread nD τ).loc main_arg7)) h7
  have hω := one_sub_alpha_isReal (m ((c : Thread nD τ).loc main_arg7)) h7
  funext i
  obtain ⟨r, j, rfl⟩ : ∃ (r j : Fin 10000), i = ix2 r j := ⟨i 0, i 1, eq_ix2 i⟩
  rw [ref_out]
  refine (G_at (V m c main_v25) (V m c main_arg1) (V m c main_v13) (V m c main_v24) (ix2 r j) r j rfl rfl).trans ?_
  have hs : ∀ k : Fin 10000, scoreAt (V m c main_v25) (V m c main_arg1) (V m c main_v13) (V m c main_v24) r k
      = alphaOf m c ix0 * Ideal.log (priorOf m c (ix2 r k) + Ideal.ofBits .f32 0x2B8CBCCC#32)
        + ∑ e : Fin 16, rowsOf m c (ix2 r e) * (rowsOf m c (ix2 k e) * Ideal.div (omegaOf m c ix0) (tauOf m c ix0)) := by
    intro k
    unfold scoreAt
    rw [V_weight_apply, V_main_arg1, V_rows]
    refine congrArg (HAdd.hAdd (alphaOf m c ix0 * Ideal.log (priorOf m c (ix2 r k) + Ideal.ofBits .f32 0x2B8CBCCC#32)))
      (Finset.sum_congr rfl fun e _ => ?_)
    exact congrArg (fun x => rowsOf m c (ix2 r e) * x) (V_keys_apply m c e k)
  simp only [hs]
  rw [row_law (alphaOf m c ix0) (omegaOf m c ix0) (tauOf m c ix0)
    (fun k => Ideal.log (priorOf m c (ix2 r k) + Ideal.ofBits .f32 0x2B8CBCCC#32))
    (fun e => rowsOf m c (ix2 r e)) (fun k e => rowsOf m c (ix2 k e))
    (hα ix0) (hω ix0) (hτ ix0).1 (hτ ix0).2
    (fun k => isReal_log ((h1 _).add eps_isReal) (hpos _)) (fun e => hHn _) (fun k e => hHn _) j]
  simp only [ref_score]

end Cert.Blend

end
-- ==== Proof.lean ====
/-
  The certificate's five claims for the blended-softmax kernel against its jnp reference.

  The kernel computes, for a [10000, 10000] prior and a [10000, 16] row-normalised embedding Hn,

      W = softmax over each row of  α · log (prior + ε) + Hn · (Hnᵀ · ((1 − α) / τ)),

  one block of 200 rows per grid point, normalising each row by the reciprocal of its sum; the reference computes
  α · log (prior + ε) + (1 − α) · ((Hn · Hnᵀ) / τ) and divides each row by its sum. Both also return the encoder
  output H, computed by the same host operations.

  * The three frames: the two kernels' are the generated frame theorems; the reference's is its generated run with
    the results dropped.
  * The idealization rewrote nothing, so there is nothing to preserve.
  * The two idealized programs agree: the kernel's run names its first result as the whole-array function of what
    the region finds and its second as the encoder array the host left; the reference's run names both as stages of
    the arguments; under the precondition (finite inputs, prior + ε > 0) the first are equal index by index (the row
    law: a factor moved across a finite sum of reals, and a reciprocal against a quotient for a positive real sum),
    the second are the same term.
-/
import proofs.«163086_j18176301597000_2_alg».proof.Defs
import proofs.«163086_j18176301597000_2_alg».proof.Proof.Gen.Kernel
import proofs.«163086_j18176301597000_2_alg».proof.Proof.Gen.Kernel.Skeleton
import proofs.«163086_j18176301597000_2_alg».proof.Proof.Gen.Kernel.Launch
import proofs.«163086_j18176301597000_2_alg».proof.Proof.Gen.Kernel.Points
import proofs.«163086_j18176301597000_2_alg».proof.Proof.Gen.Kernel.Frame
import proofs.«163086_j18176301597000_2_alg».proof.Proof.Gen.KernelIdeal
import proofs.«163086_j18176301597000_2_alg».proof.Proof.Gen.KernelIdeal.Skeleton
import proofs.«163086_j18176301597000_2_alg».proof.Proof.Gen.KernelIdeal.Launch
import proofs.«163086_j18176301597000_2_alg».proof.Proof.Gen.KernelIdeal.Points
import proofs.«163086_j18176301597000_2_alg».proof.Proof.Gen.KernelIdeal.Frame
import proofs.«163086_j18176301597000_2_alg».proof.Proof.Gen.ReferenceIdeal
import proofs.«163086_j18176301597000_2_alg».proof.Proof.Gen.KernelIdeal.Value
import proofs.«163086_j18176301597000_2_alg».proof.Proof.Gen.Pre_finite_inputs
import proofs.«163086_j18176301597000_2_alg».proof.Proof.Equal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.ValueP.run (F := Ideal) m ρ)

/-- Both idealized programs end with the same two arrays: the softmax array (the row law, under the precondition) and
    the encoder output (one term). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Blend.result m c, fun c => Cert.KernelIdeal.Gen.V m c Cert.KernelIdeal.main_v8,
    Cert.Blend.run m ρ, ?_⟩
  refine (θ_run Cert.ReferenceIdeal.defs _ _).mono (fun _ h c => ⟨?_, ?_, (h c).2.2⟩)
    (Cert.ReferenceIdeal.ValueP.run (F := Ideal) m' ρ')
  · rw [(h c).1, Cert.ReferenceIdeal.ReadP.val_main_v43_eq, (hagree c).1, (hagree c).2.1, (hagree c).2.2.1,
      (hagree c).2.2.2.1, (hagree c).2.2.2.2.1, (hagree c).2.2.2.2.2.1, (hagree c).2.2.2.2.2.2.1,
      (hagree c).2.2.2.2.2.2.2]
    exact (Cert.Blend.result_eq m c (hpre c)).symm
  · rw [(h c).2.1, Cert.ReferenceIdeal.ReadP.val_main_v8_eq, (hagree c).1, (hagree c).2.2.1,
      (hagree c).2.2.2.1, (hagree c).2.2.2.2.1, (hagree c).2.2.2.2.2.1]
    exact (Cert.Blend.V_enc m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
